-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S256x128 .f32) (main_arg3 : FVec F S256 .f32) (main_arg4 : FVec F S128x256 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x128 : Shape := ⟨2, ![850000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S1x128 : Shape := ⟨2, ![1, 128]⟩

abbrev nBuf : Space → Nat
  | .hbm => 72
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .f32⟩
  | .hbm, ⟨38, _⟩ => ⟨S_, .f32⟩
  | .hbm, ⟨39, _⟩ => ⟨S50000x128, .f32⟩
  | .hbm, ⟨40, _⟩ => ⟨S850000x1, .i32⟩
  | .hbm, ⟨41, _⟩ => ⟨S50000x128, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x256, .f32⟩
  | .hbm, ⟨46, _⟩ => ⟨S1x256, .f32⟩
  | .hbm, ⟨47, _⟩ => ⟨S50000x256, .f32⟩
  | .hbm, ⟨48, _⟩ => ⟨S256x128, .f32⟩
  | .hbm, ⟨49, _⟩ => ⟨S50000x128, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  transposes_S128x256_S256x128_1_0 : S128x256.Transposes [1, 0] S256x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v29) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x256 : Shape := ⟨2, ![50000, 256]⟩
abbrev S1x256 : Shape := ⟨2, ![1, 256]⟩
abbrev S850000x256 : Shape := ⟨2, ![850000, 256]⟩
abbrev S1x128 : Shape := ⟨2, ![1, 128]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S128x256, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S850000x1, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S128x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S850000x1, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x256, .f32⟩
  | .hbm, ⟨79, _⟩ => ⟨S850000x256, .f32⟩
  | .hbm, ⟨80, _⟩ => ⟨S850000x256, .f32⟩
  | .hbm, ⟨81, _⟩ => ⟨S_, .f32⟩
  | .hbm, ⟨82, _⟩ => ⟨S50000x256, .f32⟩
  | .hbm, ⟨83, _⟩ => ⟨S850000x1, .i32⟩
  | .hbm, ⟨84, _⟩ => ⟨S50000x256, .f32⟩
  | .hbm, ⟨85, _⟩ => ⟨S256x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S850000x1_S850000x256_0_1 : S850000x1.BroadcastsInDim S850000x256 (![0, 1] : Fin 2 → Fin S850000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run with its result named.

  @main is seven segments: three stretches of host operations, the first pallas_call, one host operation, the second
  pallas_call, and a last stretch of host operations. The generated frame proof carries "every unscoped buffer holds
  the fold of the segments so far" from the launch to the return and reads only the argument buffers off the last
  state. Here the same chain is read at the result buffer too: it ends holding the fold's value there.
-/
import proofs.«167148_j40226663694509_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the value the
    segments' fold gives it, and the argument buffers end as launched. -/
theorem run_fold : θ_run defs (onTc (τ := τ) (main (F := F))) ⟨m, fun _ => 0, ρ⟩ (fun r => ∀ c : Dev nD,
      r.2.mem ((c.tc : Thread nD τ).loc main_v53) = W7 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v53 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KRun

end
-- ==== Proof.LibRowGatherScatter.lean ====
/-
  `x[idx]` along axis 0 and its transpose, the accumulating scatter along axis 0, read at an index.

  A gather of whole rows: operand `[N, W]` (or a flat `[N]`), start indices `[E, 1]`, result `[E, W]` (or `[E]`).
  Result row `e` is operand row `idx[e, 0]`, read as a signed integer and clamped into `[0, N - 1]`.
  A scatter-add of whole rows: operand `[N, W]` (or `[N]`), scatter indices `[E, 1]`, updates `[E, W]` (or `[E]`).
  Operand row `i` receives the sum of the update rows `e` with `idx[e, 0] = i` as a signed integer; an update whose index
  is negative or at least `N` lands nowhere.
  Last, the index word after the usual wrap of negative indices (`w < 0 ? w + N : w`): where the raw word already names a
  row `i < N`, the wrapped word clamps to the same `i` — so a gather through wrapped indices and a scatter through raw
  ones speak of the same row whenever the scatter keeps the update.
-/
import Idealize.ShloMosaic.PureOps.Ideal
import Idealize.ShloMosaic.Lib.ValueIdx

noncomputable section

namespace Idealize.ShloMosaic.RowIndex

open Idealize.ShloMosaic Idealize.ShloMosaic.ValueIdx

variable {α : Type}

/-! ## Dimension numbers -/

/-- Gather of rows of `[N, W]` at `[E, 1]` start indices. -/
abbrev rowGatherDims (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Gather of entries of a flat `[N]` at `[E, 1]` start indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Scatter of rows `[E, W]` into `[N, W]` at `[E, 1]` scatter indices. -/
abbrev rowScatterDims (N E W : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

/-- Scatter of entries `[E]` into a flat `[N]` at `[E, 1]` scatter indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row a start-index word names after clamping into `[0, N - 1]`. -/
def clampRow (N : Nat) (hN : 0 < N) {w : Nat} (b : BitVec w) : Fin N := ⟨min b.toInt.toNat (N - 1), by omega⟩

/-! ## The gathers read at an index -/

/-- The row gather read at `(e, k)`: the operand at row `idx[e, 0]` (read signed, clamped into `[0, N - 1]`), column `k`. -/
theorem rowGather_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowGatherDims N E W wf) x idx (ix2 e k) = x (ix2 (clampRow N hN (idx (ix2 e 0))) k) := by
  unfold Host.gather
  congr 1
  funext a
  match a with
  | ⟨0, _⟩ =>
    refine Fin.ext ?_
    show (rowGatherDims N E W wf).start (ix2 e k) idx 0 + (rowGatherDims N E W wf).batchCoord (ix2 e k) 0
      + (rowGatherDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E W wf).startIndexMap from List.mem_singleton.mpr rfl)]
    have hsi : (rowGatherDims N E W wf).siIdx (ix2 e k) ⟨List.idxOf (0 : Fin 2) (rowGatherDims N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    refine Fin.ext ?_
    show (rowGatherDims N E W wf).start (ix2 e k) idx 1 + (rowGatherDims N E W wf).batchCoord (ix2 e k) 1
      + (rowGatherDims N E W wf).offCoord (ix2 e k) 1 = _
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr
      ⟨show (1 : Fin 2) ∉ ([0] : List (Fin 2)) by decide, List.not_mem_nil⟩)]
    simp only [Nat.zero_add, Nat.add_zero]
    rfl

/-- The flat gather read at `e`: the operand at entry `idx[e, 0]` (read signed, clamped into `[0, N - 1]`). -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulating scatters read at an index -/

/-- Where an update row lands: on axis 0 the window starts at the signed index word `idx[j 0, 0]`. -/
theorem rowScatter_start0 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 0 = (idx (ix2 (j 0) 0)).toInt := by
  unfold ScatterDims.start
  rw [dif_pos (show (0 : Fin 2) ∈ (rowScatterDims N E W wf).scatterDimsToOperandDims from List.mem_singleton.mpr rfl)]
  have hsi : (rowScatterDims N E W wf).siIdx j ⟨List.idxOf (0 : Fin 2) (rowScatterDims N E W wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On axis 1 no index word is read: the window starts at `0`. -/
theorem rowScatter_start1 {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) :
    (rowScatterDims N E W wf).start j idx 1 = 0 := by
  unfold ScatterDims.start
  rw [dif_neg (show (1 : Fin 2) ∉ ([0] : List (Fin 2)) by decide)]

/-- Axis 0 is an inserted window axis: the window coordinate there is `0`. -/
theorem rowScatter_window0 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 0 = 0 := by
  unfold ScatterDims.window
  have h0 : (0 : Fin 2) ∉ (rowScatterDims N E W wf).sKept := by
    simp [Shape.kept, List.mem_filter]
  rw [dif_neg h0]

/-- Axis 1 is the window axis: the window coordinate there is the update's column. -/
theorem rowScatter_window1 {N E W : Nat}
    (wf : ScatterDims.WF ⟨2, ![N, W]⟩ ⟨2, ![E, 1]⟩ ⟨2, ![E, W]⟩ [1] [0] [0] 1)
    (j : (⟨2, ![E, W]⟩ : Shape).Idx) :
    (rowScatterDims N E W wf).window j 1 = (j 1).val := by
  unfold ScatterDims.window
  have h1 : (1 : Fin 2) ∈ (rowScatterDims N E W wf).sKept := by
    simp [Shape.kept, List.mem_filter, List.mem_finRange]
  rw [dif_pos h1]
  rfl

/-- An update `(e, c)` lands on `(i, k)` exactly when its index word is `i` as a signed integer and `c = k`. -/
theorem rowScatter_resultIdx_iff {N E W w : Nat}
    (wf : ScatterDims.WF ⟨2, ![N, W]⟩ ⟨2, ![E, 1]⟩ ⟨2, ![E, W]⟩ [1] [0] [0] 1)
    (idx : IVec ⟨2, ![E, 1]⟩ w) (j : (⟨2, ![E, W]⟩ : Shape).Idx) (i : Fin N) (k : Fin W) :
    (rowScatterDims N E W wf).resultIdx? j idx = some (ix2 i k)
      ↔ (idx (ix2 (j 0) 0)).toInt = (i.val : ℤ) ∧ j 1 = k := by
  have hs0 := rowScatter_start0 wf idx j
  have hs1 := rowScatter_start1 wf idx j
  have hw0 := rowScatter_window0 wf j
  have hw1 := rowScatter_window1 wf j
  unfold ScatterDims.resultIdx?
  split
  · rename_i hall
    rw [Option.some.injEq]
    constructor
    · intro heq
      have h0 := congrArg Fin.val (congrFun heq 0)
      have h1 := congrArg Fin.val (congrFun heq 1)
      have ha0 := (hall 0).1
      change ((rowScatterDims N E W wf).start j idx 0 + ((rowScatterDims N E W wf).window j 0 : ℤ)).toNat = i.val at h0
      change ((rowScatterDims N E W wf).start j idx 1 + ((rowScatterDims N E W wf).window j 1 : ℤ)).toNat = k.val at h1
      rw [hs0, hw0] at h0 ha0
      rw [hs1, hw1] at h1
      refine ⟨by omega, Fin.ext (by omega)⟩
    · rintro ⟨h0, h1⟩
      funext a
      refine Fin.ext ?_
      match a with
      | ⟨0, _⟩ =>
        show ((rowScatterDims N E W wf).start j idx 0 + ((rowScatterDims N E W wf).window j 0 : ℤ)).toNat = i.val
        rw [hs0, hw0, h0]; omega
      | ⟨1, _⟩ =>
        show ((rowScatterDims N E W wf).start j idx 1 + ((rowScatterDims N E W wf).window j 1 : ℤ)).toNat = k.val
        rw [hs1, hw1, h1]; omega
  · rename_i hnot
    constructor
    · intro heq; cases heq
    · rintro ⟨h0, h1⟩
      exfalso
      apply hnot
      intro a
      match a with
      | ⟨0, _⟩ =>
        show 0 ≤ (rowScatterDims N E W wf).start j idx 0 + ((rowScatterDims N E W wf).window j 0 : ℤ)
          ∧ (rowScatterDims N E W wf).start j idx 0 + ((rowScatterDims N E W wf).window j 0 : ℤ) < (N : ℤ)
        rw [hs0, hw0, h0]
        have := i.isLt
        omega
      | ⟨1, _⟩ =>
        show 0 ≤ (rowScatterDims N E W wf).start j idx 1 + ((rowScatterDims N E W wf).window j 1 : ℤ)
          ∧ (rowScatterDims N E W wf).start j idx 1 + ((rowScatterDims N E W wf).window j 1 : ℤ) < (W : ℤ)
        rw [hs1, hw1, h1]
        have := k.isLt
        omega

/-- The row scatter-add read at `(i, k)`: the operand's entry plus the sum of the updates `(e, k)` over the update rows
    `e` whose index word `idx[e, 0]` is `i` as a signed integer. -/
theorem rowScatterAdd_apply {N E W w : Nat}
    (wf : ScatterDims.WF ⟨2, ![N, W]⟩ ⟨2, ![E, 1]⟩ ⟨2, ![E, W]⟩ [1] [0] [0] 1)
    (x0 : (⟨2, ![N, W]⟩ : Shape).Idx → EReal) (idx : IVec ⟨2, ![E, 1]⟩ w) (upd : (⟨2, ![E, W]⟩ : Shape).Idx → EReal)
    (i : Fin N) (k : Fin W) :
    Ideal.hostScatterAdd (rowScatterDims N E W wf) x0 idx upd (ix2 i k)
      = x0 (ix2 i k) + ∑ e ∈ Finset.univ.filter (fun e : Fin E => (idx (ix2 e 0)).toInt = (i.val : ℤ)), upd (ix2 e k) := by
  unfold Ideal.hostScatterAdd
  congr 1
  have hback : ∀ j : (⟨2, ![E, W]⟩ : Shape).Idx,
      (rowScatterDims N E W wf).resultIdx? j idx = some (ix2 i k) → ix2 (j 0 : Fin E) k = j := by
    intro j hj
    have hk := ((rowScatter_resultIdx_iff wf idx j i k).mp hj).2
    rw [← hk]; exact (eq_ix2 j).symm
  refine Finset.sum_nbij' (fun j => (j 0 : Fin E)) (fun e => ix2 e k) ?_ ?_ ?_ ?_ ?_
  · intro j hj
    exact Finset.mem_filter.mpr ⟨Finset.mem_univ _,
      ((rowScatter_resultIdx_iff wf idx j i k).mp (Finset.mem_filter.mp hj).2).1⟩
  · intro e he
    exact Finset.mem_filter.mpr ⟨Finset.mem_univ _,
      (rowScatter_resultIdx_iff wf idx (ix2 e k) i k).mpr ⟨(Finset.mem_filter.mp he).2, rfl⟩⟩
  · intro j hj
    exact hback j (Finset.mem_filter.mp hj).2
  · intro e _
    rfl
  · intro j hj
    exact congrArg upd (hback j (Finset.mem_filter.mp hj).2).symm

/-- A flat update lands at the signed index word `idx[j 0, 0]`. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate there is `0`. -/
theorem vecScatter_window0 {N E : Nat}
    (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  have h0 : (0 : Fin 1) ∉ (vecScatterDims N E wf).sKept := by
    simp [Shape.kept, List.mem_filter]
  rw [dif_neg h0]

/-- A flat update `e` lands on `i` exactly when its index word is `i` as a signed integer. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : Fin N) :
    (vecScatterDims N E wf).resultIdx? j idx = some (ix1 i) ↔ (idx (ix2 (j 0) 0)).toInt = (i.val : ℤ) := by
  have hs0 := vecScatter_start0 wf idx j
  have hw0 := vecScatter_window0 wf j
  unfold ScatterDims.resultIdx?
  split
  · rename_i hall
    rw [Option.some.injEq]
    constructor
    · intro heq
      have h0 := congrArg Fin.val (congrFun heq 0)
      have ha0 := (hall 0).1
      change ((vecScatterDims N E wf).start j idx 0 + ((vecScatterDims N E wf).window j 0 : ℤ)).toNat = i.val at h0
      rw [hs0, hw0] at h0 ha0
      omega
    · intro h0
      funext a
      refine Fin.ext ?_
      obtain rfl : a = 0 := Subsingleton.elim _ _
      show ((vecScatterDims N E wf).start j idx 0 + ((vecScatterDims N E wf).window j 0 : ℤ)).toNat = i.val
      rw [hs0, hw0, h0]; omega
  · rename_i hnot
    constructor
    · intro heq; cases heq
    · intro h0
      exfalso
      apply hnot
      intro a
      obtain rfl : a = 0 := Subsingleton.elim _ _
      show 0 ≤ (vecScatterDims N E wf).start j idx 0 + ((vecScatterDims N E wf).window j 0 : ℤ)
        ∧ (vecScatterDims N E wf).start j idx 0 + ((vecScatterDims N E wf).window j 0 : ℤ) < (N : ℤ)
      rw [hs0, hw0, h0]
      have := i.isLt
      omega

/-- The flat scatter-add read at `i`: the operand's entry plus the sum of the updates `e` whose index word `idx[e, 0]`
    is `i` as a signed integer. -/
theorem vecScatterAdd_apply {N E w : Nat}
    (wf : ScatterDims.WF ⟨1, ![N]⟩ ⟨2, ![E, 1]⟩ ⟨1, ![E]⟩ [] [0] [0] 1)
    (x0 : (⟨1, ![N]⟩ : Shape).Idx → EReal) (idx : IVec ⟨2, ![E, 1]⟩ w) (upd : (⟨1, ![E]⟩ : Shape).Idx → EReal)
    (i : Fin N) :
    Ideal.hostScatterAdd (vecScatterDims N E wf) x0 idx upd (ix1 i)
      = x0 (ix1 i) + ∑ e ∈ Finset.univ.filter (fun e : Fin E => (idx (ix2 e 0)).toInt = (i.val : ℤ)), upd (ix1 e) := by
  unfold Ideal.hostScatterAdd
  congr 1
  refine Finset.sum_nbij' (fun j => (j 0 : Fin E)) (fun e => ix1 e) ?_ ?_ ?_ ?_ ?_
  · intro j hj
    exact Finset.mem_filter.mpr ⟨Finset.mem_univ _,
      (vecScatter_resultIdx_iff wf idx j i).mp (Finset.mem_filter.mp hj).2⟩
  · intro e he
    exact Finset.mem_filter.mpr ⟨Finset.mem_univ _,
      (vecScatter_resultIdx_iff wf idx (ix1 e) i).mpr (Finset.mem_filter.mp he).2⟩
  · intro j _
    exact (eq_ix1 j).symm
  · intro e _
    rfl
  · intro j _
    exact congrArg upd (eq_ix1 j)

/-! ## The wrapped index word -/

/-- Where the raw word names a row below `50000`, the word wrapped at `50000` (negative words shifted up by the extent)
    clamps to that same row. -/
theorem clampRow_wrap_of_toInt_eq (b : BitVec 32) (i : Fin 50000) (h : b.toInt = (i.val : ℤ)) :
    clampRow 50000 (by decide) (Scalar.select (IntOp.cmpi .slt b 0#32) (IntOp.addi b 50000#32) b) = i := by
  have hlt : b.slt 0#32 = false := by
    rw [BitVec.slt, h]
    simp
  have hc : IntOp.cmpi .slt b 0#32 = 0#1 := by
    show BitVec.ofBool (b.slt 0#32) = 0#1
    rw [hlt]; rfl
  rw [hc, select_zero]
  refine Fin.ext ?_
  show min b.toInt.toNat (50000 - 1) = i.val
  rw [h]
  have := i.isLt
  omega

end Idealize.ShloMosaic.RowIndex

end
-- ==== Proof.GcnIndex.lean ====
/-
  The graph a pair of index rows describes, over the literal extents of this problem: 50000 nodes, 850000 edges
  (800000 given ones followed by one self loop per node).

  `edgesOn row i` is the set of edges whose raw target word is `i` as a signed integer: the edges an accumulating scatter
  along axis 0 adds into row `i` (a word that is negative or at least 50000 lands nowhere, so such an edge is in no set).
  `wrapRow v e` is the node a gather along axis 0 reads for edge `e`: the word wrapped at 50000 when negative, then clamped
  into the node range. For an edge of `edgesOn row i` the two agree: `wrapRow row e = i`.
-/
import proofs.«167148_j40226663694509_2_alg».proof.Proof.LibRowGatherScatter

noncomputable section

namespace Cert.Gcn

open Idealize.ShloMosaic Idealize.ShloMosaic.ValueIdx Idealize.ShloMosaic.RowIndex

/-- The edges an accumulating scatter through the raw words `row` adds into node `i`. -/
def edgesOn (row : IVec ⟨1, ![850000]⟩ 32) (i : Fin 50000) : Finset (Fin 850000) :=
  Finset.univ.filter fun e : Fin 850000 => (row (ix1 e)).toInt = (i.val : ℤ)

/-- A word wrapped at the node count: a negative word is shifted up by 50000. -/
def wrapWord (b : BitVec 32) : BitVec 32 := Scalar.select (IntOp.cmpi .slt b 0#32) (IntOp.addi b 50000#32) b

/-- The node a gather through the wrapped words of `v` reads for edge `e`. -/
def wrapRow (v : IVec ⟨1, ![850000]⟩ 32) (e : Fin 850000) : Fin 50000 :=
  clampRow 50000 (by decide) (wrapWord (v (ix1 e)))

/-- An edge the scatter keeps for node `i` is gathered from node `i`. -/
theorem wrapRow_of_mem_edgesOn (row : IVec ⟨1, ![850000]⟩ 32) (i : Fin 50000) (e : Fin 850000) (he : e ∈ edgesOn row i) :
    wrapRow row e = i :=
  clampRow_wrap_of_toInt_eq _ i (Finset.mem_filter.mp he).2

end Cert.Gcn

end
-- ==== Proof.KAggr.lean ====
/-
  The node-scaled aggregation of the kernel's host side, read at an index.

  `scale d a` multiplies row `n` of a `[50000, 128]` array by `d n`. `aggr d row col a` scales `a`, gathers its rows at
  the wrapped source words of `col`, scatter-adds them at the raw target words of `row` into zeros, and scales the
  result again. At node `i` and feature `k` that is `d i` times the sum, over the edges landing on `i`, of `d` at the
  edge's source times `a` at the edge's source row.
-/
import proofs.«167148_j40226663694509_2_alg».proof.KernelIdeal
import proofs.«167148_j40226663694509_2_alg».proof.Proof.Gen.KernelIdeal
import proofs.«167148_j40226663694509_2_alg».proof.Proof.GcnIndex
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.Gcn
open Idealize.ShloMosaic Idealize.ShloMosaic.ValueIdx Idealize.ShloMosaic.RowIndex

variable [Cert.KernelIdeal.Facts₀]
open Cert.KernelIdeal.Facts₀

/-- The raw target words as a column of scatter indices. -/
def rowIdx (row : IVec S850000 32) : IVec S850000x1 32 :=
  broadcastInDim S850000x1 ![0] bcast_S850000_S850000x1_0 row

/-- The source words, wrapped at the node count when negative, as a column of start indices. -/
def colIdx (col : IVec S850000 32) : IVec S850000x1 32 :=
  broadcastInDim S850000x1 ![0] bcast_S850000_S850000x1_0
    (select (cmpi .slt col (broadcastInDim S850000 ![] bcast_S_S850000 (constantI S_ 32 0#32)))
      (addi col (broadcastInDim S850000 ![] bcast_S_S850000 (constantI S_ 32 50000#32))) col)

/-- Row `n` of `a` multiplied by `d n`. -/
def scale (d : FVec Ideal S50000 .f32) (a : FVec Ideal S50000x128 .f32) : FVec Ideal S50000x128 .f32 :=
  mulf (broadcastInDim S50000x128 ![0, 1] bcast_S50000x1_S50000x128_0_1 (broadcastInDim S50000x1 ![0] bcast_S50000_S50000x1_0 d)) a

/-- Scale, gather at the sources, scatter-add at the targets into zeros, scale again. -/
def aggr (d : FVec Ideal S50000 .f32) (row col : IVec S850000 32) (a : FVec Ideal S50000x128 .f32) : FVec Ideal S50000x128 .f32 :=
  scale d (Host.scatterAdd scatter_S50000x128_S850000x1_S850000x128_1_0_0_1
    (broadcastInDim S50000x128 ![] bcast_S_S50000x128 (constant S_ .f32 0x00000000#32)) (rowIdx row)
    (Host.gather gather_S50000x128_S850000x1_S850000x128_1_0_n_n_0_1_1128 (scale d a) (colIdx col)))

/-- The scaling read at an index. -/
theorem scale_apply (d : FVec Ideal S50000 .f32) (a : FVec Ideal S50000x128 .f32) (n : Fin 50000) (k : Fin 128) :
    scale d a (ix2 n k) = d (ix1 n) * a (ix2 n k) := by
  unfold scale
  rw [mulf_apply]
  congr 1
  refine (broadcastInDim_apply _ bcast_S50000x1_S50000x128_0_1 _ (ix2 n k) (ix2 n (0 : Fin 1)) (fun a => match a with
    | ⟨0, _⟩ => by show n.val = if (50000 : Nat) = 1 then 0 else n.val; rw [if_neg (by decide)]
    | ⟨1, _⟩ => by show 0 = if (1 : Nat) = 1 then 0 else k.val; rw [if_pos rfl])).trans ?_
  exact broadcastInDim_apply _ bcast_S50000_S50000x1_0 d (ix2 n (0 : Fin 1)) (ix1 n) (fun a => match a with
    | ⟨0, _⟩ => by show n.val = if (50000 : Nat) = 1 then 0 else n.val; rw [if_neg (by decide)])

/-- The column of target words read at `(e, 0)` is the target word of edge `e`. -/
theorem rowIdx_apply (row : IVec S850000 32) (e : Fin 850000) : rowIdx row (ix2 e (0 : Fin 1)) = row (ix1 e) := by
  unfold rowIdx
  exact broadcastInDim_apply _ bcast_S850000_S850000x1_0 row (ix2 e (0 : Fin 1)) (ix1 e) (fun a => match a with
    | ⟨0, _⟩ => by show e.val = if (850000 : Nat) = 1 then 0 else e.val; rw [if_neg (by decide)])

/-- The column of source words read at `(e, 0)` is the wrapped source word of edge `e`. -/
theorem colIdx_apply (col : IVec S850000 32) (e : Fin 850000) :
    colIdx col (ix2 e (0 : Fin 1)) = wrapWord (col (ix1 e)) := by
  unfold colIdx
  refine (broadcastInDim_apply _ bcast_S850000_S850000x1_0 _ (ix2 e (0 : Fin 1)) (ix1 e) (fun a => match a with
    | ⟨0, _⟩ => by show e.val = if (850000 : Nat) = 1 then 0 else e.val; rw [if_neg (by decide)])).trans ?_
  rw [select_apply]
  rfl

/-- The scatter's initial array is zero everywhere. -/
theorem zeros_apply (j : S50000x128.Idx) :
    broadcastInDim S50000x128 ![] bcast_S_S50000x128 (constant (F := Ideal) S_ .f32 0x00000000#32) j = 0 := by
  refine (broadcastInDim_apply _ bcast_S_S50000x128 _ j ix0 (fun a => a.elim0)).trans ?_
  exact Ideal.ofBits_zero_f32

/-- The scatter's dimension numbers are those of the row scatter along axis 0. -/
theorem scatter_eq_rowScatterDims :
    scatter_S50000x128_S850000x1_S850000x128_1_0_0_1
      = rowScatterDims 50000 850000 128 scatter_S50000x128_S850000x1_S850000x128_1_0_0_1_wf := rfl

/-- The gather's dimension numbers are those of the row gather along axis 0. -/
theorem gather_eq_rowGatherDims :
    gather_S50000x128_S850000x1_S850000x128_1_0_n_n_0_1_1128
      = rowGatherDims 50000 850000 128 gather_S50000x128_S850000x1_S850000x128_1_0_n_n_0_1_1128_wf := rfl

/-- The aggregation is the scaling of the scatter-add of the gathered scaled rows. -/
theorem aggr_eq (d : FVec Ideal S50000 .f32) (row col : IVec S850000 32) (a : FVec Ideal S50000x128 .f32)
    (i : Fin 50000) (k : Fin 128) :
    aggr d row col a (ix2 i k)
      = d (ix1 i) * Host.scatterAdd scatter_S50000x128_S850000x1_S850000x128_1_0_0_1
          (broadcastInDim S50000x128 ![] bcast_S_S50000x128 (constant S_ .f32 0x00000000#32)) (rowIdx row)
          (Host.gather gather_S50000x128_S850000x1_S850000x128_1_0_n_n_0_1_1128 (scale d a) (colIdx col)) (ix2 i k) := by
  unfold aggr
  rw [scale_apply]

/-- The scatter-add read at an index: the initial entry plus the updates of the edges whose index word is `i`. -/
theorem scatterAdd_read (x0 : FVec Ideal S50000x128 .f32) (idx : IVec S850000x1 32) (upd : FVec Ideal S850000x128 .f32)
    (i : Fin 50000) (k : Fin 128) :
    Host.scatterAdd scatter_S50000x128_S850000x1_S850000x128_1_0_0_1 x0 idx upd (ix2 i k)
      = x0 (ix2 i k) + ∑ e ∈ Finset.univ.filter (fun e : Fin 850000 => (idx (ix2 e 0)).toInt = (i.val : ℤ)), upd (ix2 e k) :=
  rowScatterAdd_apply scatter_S50000x128_S850000x1_S850000x128_1_0_0_1_wf x0 idx upd i k

/-- The edges whose target word, read off the column of scatter indices, is `i` are the edges on `i`. -/
theorem targets_filter (row : IVec S850000 32) (i : Fin 50000) :
    (Finset.univ.filter fun e : Fin 850000 => (rowIdx row (ix2 e 0)).toInt = (i.val : ℤ)) = edgesOn row i := by
  unfold edgesOn
  refine Finset.filter_congr fun e _ => ?_
  rw [rowIdx_apply]

/-- The gathered scaled row of edge `e`: the scaling at the edge's source node times the source row. -/
theorem gathered_read (d : FVec Ideal S50000 .f32) (col : IVec S850000 32) (a : FVec Ideal S50000x128 .f32)
    (e : Fin 850000) (k : Fin 128) :
    Host.gather gather_S50000x128_S850000x1_S850000x128_1_0_n_n_0_1_1128 (scale d a) (colIdx col) (ix2 e k)
      = d (ix1 (wrapRow col e)) * a (ix2 (wrapRow col e) k) := by
  rw [gather_eq_rowGatherDims, rowGather_apply (by decide), colIdx_apply, scale_apply]
  rfl

/-- The aggregation read at an index. -/
theorem aggr_apply (d : FVec Ideal S50000 .f32) (row col : IVec S850000 32) (a : FVec Ideal S50000x128 .f32)
    (i : Fin 50000) (k : Fin 128) :
    aggr d row col a (ix2 i k)
      = d (ix1 i) * ∑ e ∈ edgesOn row i, d (ix1 (wrapRow col e)) * a (ix2 (wrapRow col e) k) := by
  rw [aggr_eq, scatterAdd_read, zeros_apply, zero_add, targets_filter]
  refine congrArg (fun z => d (ix1 i) * z) ?_
  exact Finset.sum_congr rfl fun e _ => gathered_read d col a e k

end Cert.KernelIdeal.KVal

end
-- ==== Proof.KRegion.lean ====
/-
  The two pallas_calls of the idealized kernel, each read as one function of the arrays it is entered with.

  Each call runs over ten grid points; point `t` reads rows `5000 t … 5000 t + 4999` of its row operand, the whole of its
  weight operand (and, in the first call, of the bias row), and writes rows `5000 t … 5000 t + 4999` of its result.
  The first call's body is a matrix product (a change of float format is the identity on extended reals, the product
  into a zero accumulator the plain sum over the contracted axis) plus the bias row, clipped below at zero; the
  second call's body is the matrix product alone. So what point `t` writes back is block `t` of ONE whole-array function
  (`G0`, `G1`) of the operands, the ten blocks tile the result, and the result array ends holding that function.
-/
import proofs.«167148_j40226663694509_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

section Dot0

theorem dotA_lhs0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
theorem dotA_rhs1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The first layer on one block: row `p` of the block against column `h` of the weights, plus the bias row's entry,
    clipped below at zero. -/
theorem pay0_apply (x0 : Vec Ideal S5000x128 .f32) (x1 : Vec Ideal S128x256 .f32) (x2 : Vec Ideal S1x256 .f32) (p : Fin 5000) (h : Fin 256) :
    k0_pay1 (F := Ideal) x0 x1 x2 (ix2 p h)
      = max ((∑ k : Fin 128, x0 (ix2 p k) * x1 (ix2 k h)) + x2 (ix2 (0 : Fin 1) h)) 0 := by
  unfold k0_pay1
  rw [shapeCast_self, shapeCast_self, shapeCast_self]
  rw [maximumf_apply, addf_apply, broadcast_apply, broadcastTo_1b_ab_apply]
  simp only [matmul]
  rw [Ideal.matmul_constant_zero_apply,
    ← Equiv.sum_comp (contrEquiv1 dot_S5000x128_S128x256_S5000x256_1_0_0_1_n_n 128 rfl rfl).symm]
  show max ((∑ k : Fin 128, _) + _) (Ideal.ofBits .f32 0x00000000#32) = _
  rw [Ideal.ofBits_zero_f32]
  refine congrArg (fun s => max (s + x2 (ix2 (0 : Fin 1) h)) 0) (Finset.sum_congr rfl fun k _ => ?_)
  have hk := contrEquiv1_symm_val dot_S5000x128_S128x256_S5000x256_1_0_0_1_n_n 128 rfl rfl k
  have el : dot_S5000x128_S128x256_S5000x256_1_0_0_1_n_n.lhsIdx (ix2 p h)
      ((contrEquiv1 dot_S5000x128_S128x256_S5000x256_1_0_0_1_n_n 128 rfl rfl).symm k) = ix2 p k := funext fun a => Fin.ext (by
    match a with
    | ⟨0, _⟩ => exact dotA_lhs0 _ _
    | ⟨1, _⟩ => exact (dot_S5000x128_S128x256_S5000x256_1_0_0_1_n_n.lhsIdx_val_of_single rfl _ _).trans hk)
  have er : dot_S5000x128_S128x256_S5000x256_1_0_0_1_n_n.rhsIdx (ix2 p h)
      ((contrEquiv1 dot_S5000x128_S128x256_S5000x256_1_0_0_1_n_n 128 rfl rfl).symm k) = ix2 k h := funext fun a => Fin.ext (by
    match a with
    | ⟨0, _⟩ => exact (dot_S5000x128_S128x256_S5000x256_1_0_0_1_n_n.rhsIdx_val_of_single rfl _ _).trans hk
    | ⟨1, _⟩ => exact dotA_rhs1 _ _)
  rw [truncf_apply, truncf_apply, el, er]
end Dot0

section Dot1
theorem dotB_lhs0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem dotB_rhs1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The second layer on one block: row `p` of the block against column `j` of the weights. -/
theorem pay1_apply (x0 : Vec Ideal S5000x256 .f32) (x1 : Vec Ideal S256x128 .f32) (p : Fin 5000) (j : Fin 128) :
    k1_pay1 (F := Ideal) x0 x1 (ix2 p j) = ∑ h : Fin 256, x0 (ix2 p h) * x1 (ix2 h j) := by
  unfold k1_pay1
  rw [shapeCast_self, shapeCast_self]
  simp only [matmul]
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j)
      ((contrEquiv1 dot_S5000x256_S256x128_S5000x128_1_0_0_1_n_n 256 rfl rfl).symm k) = ix2 p k := funext fun a => Fin.ext (by
    match a with
    | ⟨0, _⟩ => exact dotB_lhs0 _ _
    | ⟨1, _⟩ => exact (dot_S5000x256_S256x128_S5000x128_1_0_0_1_n_n.lhsIdx_val_of_single rfl _ _).trans hk)
  have er : dot_S5000x256_S256x128_S5000x128_1_0_0_1_n_n.rhsIdx (ix2 p j)
      ((contrEquiv1 dot_S5000x256_S256x128_S5000x128_1_0_0_1_n_n 256 rfl rfl).symm k) = ix2 k j := funext fun a => Fin.ext (by
    match a with
    | ⟨0, _⟩ => exact (dot_S5000x256_S256x128_S5000x128_1_0_0_1_n_n.rhsIdx_val_of_single rfl _ _).trans hk
    | ⟨1, _⟩ => exact dotB_rhs1 _ _)
  rw [truncf_apply, truncf_apply, el, er]
end Dot1

/-! ## The first call -/

variable (V : (c : Dev nD) → (b : Ref sig .tc) → Buf (Elt Ideal) ((c : Thread nD τ).loc b))

/-- The first layer of node `n`, hidden feature `h`: the node's row against the weights' column, plus the bias, clipped
    below at zero. -/
def layer1 (A : S50000x128.Idx → EReal) (B : S128x256.Idx → EReal) (b : S1x256.Idx → EReal) (n : Fin 50000) (h : Fin 256) : EReal :=
  max ((∑ k : Fin 128, A (ix2 n k) * B (ix2 k h)) + b (ix2 (0 : Fin 1) h)) 0

/-- The first layer as a whole array. -/
def G0 (A : S50000x128.Idx → EReal) (B : S128x256.Idx → EReal) (b : S1x256.Idx → EReal) : S50000x256.Idx → EReal :=
  fun i => layer1 A B b ⟨(i 0).val, (i 0).isLt⟩ ⟨(i 1).val, (i 1).isLt⟩

/-- The first call's index maps over its ten grid points: the row blocks move with the point, the weights and the
    bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_ten0 (t : Fin cfg0.N) : t.val < 10 := by
  have h : t.val < grid0.N := t.isLt
  rw [N_0] at h; exact h

/-- Row `p` of the first call's input block at point `t` is row `5000 t + p` of its array. -/
theorem blk0_0 (c : Dev nD) (t : Fin cfg0.N) (p : Fin 5000) (k : Fin 128) (r : Fin 50000) (hr : r.val = t.val * 5000 + p.val) :
    (iblk0 V c 0 t : Vec Ideal S5000x128 .f32) (ix2 p k) = (V c main_v29 : S50000x128.Idx → EReal) (ix2 r k) := by
  obtain ⟨e00, e01, -⟩ := idx_facts0 t
  unfold iblk0
  rw [View.read_apply]
  show V c main_v29 _ = V c main_v29 _
  congr 1
  funext a
  apply Fin.ext
  match a with
  | ⟨0, _⟩ => show win0_0.index t 0 * 5000 + 1 * p.val = r.val; rw [e00, hr]; omega
  | ⟨1, _⟩ => show win0_0.index t 1 * 128 + 1 * k.val = k.val; rw [e01]; omega

/-- The weights' block is the whole array at every point. -/
theorem blk0_1 (c : Dev nD) (t : Fin cfg0.N) (k : Fin 128) (q : Fin 256) :
    (iblk0 V c 1 t : Vec Ideal S128x256 .f32) (ix2 k q) = (V c main_v30 : S128x256.Idx → EReal) (ix2 k q) := by
  obtain ⟨-, -, e10, e11, -⟩ := idx_facts0 t
  unfold iblk0
  rw [View.read_apply]
  show V c main_v30 _ = V c main_v30 _
  congr 1
  funext a
  apply Fin.ext
  match a with
  | ⟨0, _⟩ => show win0_1.index t 0 * 128 + 1 * k.val = k.val; rw [e10]; omega
  | ⟨1, _⟩ => show win0_1.index t 1 * 256 + 1 * q.val = q.val; rw [e11]; omega

/-- The bias row's block is the whole row at every point. -/
theorem blk0_2 (c : Dev nD) (t : Fin cfg0.N) (q : Fin 256) :
    (iblk0 V c 2 t : Vec Ideal S1x256 .f32) (ix2 (0 : Fin 1) q) = (V c main_v31 : S1x256.Idx → EReal) (ix2 (0 : Fin 1) q) := by
  obtain ⟨-, -, -, -, e20, e21, -⟩ := idx_facts0 t
  unfold iblk0
  rw [View.read_apply]
  show V c main_v31 _ = V c main_v31 _
  congr 1
  funext a
  apply Fin.ext
  match a with
  | ⟨0, _⟩ => show win0_2.index t 0 * 1 + 1 * 0 = 0; rw [e20]
  | ⟨1, _⟩ => show win0_2.index t 1 * 256 + 1 * q.val = q.val; rw [e21]; omega

/-- What point `t` writes back is block `t` of the first layer of the arrays the call is entered with. -/
theorem flushed0 (c : Dev nD) (t : Fin cfg0.N) :
    (dat0 V c).flushed 3 t = ((cfg0.win 3).blk t).view.read (Elt Ideal) (G0 (V c main_v29) (V c main_v30) (V c main_v31)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x256) hz]
  obtain ⟨e00, e01, e10, e11, e20, e21, e30, e31⟩ := idx_facts0 t
  have ht := lt_ten0 t
  funext j
  obtain ⟨p, q, rfl⟩ : ∃ (p : Fin 5000) (q : Fin 256), j = ix2 p q := ⟨j 0, j 1, eq_ix2 j⟩
  have hr : t.val * 5000 + p.val < 50000 := by have := p.isLt; omega
  show k0_pay1 (F := Ideal) (iblk0 V c 0 t) (iblk0 V c 1 t) (iblk0 V c 2 t) (ix2 p q)
    = G0 (V c main_v29) (V c main_v30) (V c main_v31) (((cfg0.win 3).blk t).view.emb (ix2 p q))
  rw [pay0_apply]
  refine Eq.trans ?_ (congrArg₂ (layer1 (V c main_v29) (V c main_v30) (V c main_v31)) (Fin.ext ?_) (Fin.ext ?_) :
    layer1 (V c main_v29) (V c main_v30) (V c main_v31) ⟨t.val * 5000 + p.val, hr⟩ q
      = G0 (V c main_v29) (V c main_v30) (V c main_v31) (((cfg0.win 3).blk t).view.emb (ix2 p q)))
  · unfold layer1
    rw [blk0_2 V c t q]
    simp only [fun k => blk0_0 V c t p k ⟨t.val * 5000 + p.val, hr⟩ rfl, fun k => blk0_1 V c t k q]
  · show t.val * 5000 + p.val = win0_3.index t 0 * 5000 + 1 * p.val
    rw [e30]; omega
  · show q.val = win0_3.index t 1 * 256 + 1 * q.val
    rw [e31]; omega

/-- An index of the first call's result array is in point `t`'s block iff each coordinate is in the block's range. -/
theorem mem_blk0 (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v32).slice (win0_3.rect t)).set ↔ _
  rw [View.set_slice_whole, Rect.mem_set_unit]
  exact Iff.rfl

/-- After the first call its result array holds the first layer of the arrays the call is entered with: the ten row
    blocks tile it, row `r` lying in block `r / 5000`. -/
theorem final0 (c : Dev nD) : (dat0 V c).arrAt 3 cfg0.N = G0 (V c main_v29) (V c main_v30) (V c main_v31) :=
  (dat0 V c).arrAt_eq_of_cover 3 _ (fun t _ => flushed0 V c t) fun i => by
    have hi0 : (i 0).val < 50000 := (i 0).isLt
    have hi1 : (i 1).val < 256 := (i 1).isLt
    have hN : grid0.N = 10 := N_0
    obtain ⟨t, htv⟩ : ∃ t : Fin cfg0.N, t.val = (i 0).val / 5000 :=
      ⟨⟨(i 0).val / 5000, by show _ < grid0.N; rw [hN]; omega⟩, rfl⟩
    obtain ⟨-, -, -, -, -, -, e30, e31⟩ := idx_facts0 t
    refine ⟨t, flush0_3 t, ?_⟩
    rw [mem_blk0]
    intro a
    match a with
    | ⟨0, _⟩ =>
      show win0_3.index t 0 * 5000 ≤ (i 0).val ∧ (i 0).val < win0_3.index t 0 * 5000 + 5000
      rw [e30, htv]; omega
    | ⟨1, _⟩ =>
      show win0_3.index t 1 * 256 ≤ (i 1).val ∧ (i 1).val < win0_3.index t 1 * 256 + 256
      rw [e31]; omega

/-! ## The second call -/

/-- The second layer of node `n`, output feature `j`: the node's hidden row against the weights' column. -/
def layer2 (A : S50000x256.Idx → EReal) (B : S256x128.Idx → EReal) (n : Fin 50000) (j : Fin 128) : EReal :=
  ∑ h : Fin 256, A (ix2 n h) * B (ix2 h j)

/-- The second layer as a whole array. -/
def G1 (A : S50000x256.Idx → EReal) (B : S256x128.Idx → EReal) : S50000x128.Idx → EReal :=
  fun i => layer2 A B ⟨(i 0).val, (i 0).isLt⟩ ⟨(i 1).val, (i 1).isLt⟩

/-- The second call's index maps over its ten grid points: the row blocks move with the point, the weights stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_ten1 (t : Fin cfg1.N) : t.val < 10 := by
  have h : t.val < grid1.N := t.isLt
  rw [N_1] at h; exact h

/-- Row `p` of the second call's input block at point `t` is row `5000 t + p` of its array. -/
theorem blk1_0 (c : Dev nD) (t : Fin cfg1.N) (p : Fin 5000) (h : Fin 256) (r : Fin 50000) (hr : r.val = t.val * 5000 + p.val) :
    (iblk1 V c 0 t : Vec Ideal S5000x256 .f32) (ix2 p h) = (V c main_v32 : S50000x256.Idx → EReal) (ix2 r h) := by
  obtain ⟨e00, e01, -⟩ := idx_facts1 t
  unfold iblk1
  rw [View.read_apply]
  show V c main_v32 _ = V c main_v32 _
  congr 1
  funext a
  apply Fin.ext
  match a with
  | ⟨0, _⟩ => show win1_0.index t 0 * 5000 + 1 * p.val = r.val; rw [e00, hr]; omega
  | ⟨1, _⟩ => show win1_0.index t 1 * 256 + 1 * h.val = h.val; rw [e01]; omega

/-- The weights' block is the whole array at every point. -/
theorem blk1_1 (c : Dev nD) (t : Fin cfg1.N) (h : Fin 256) (j : Fin 128) :
    (iblk1 V c 1 t : Vec Ideal S256x128 .f32) (ix2 h j) = (V c main_v33 : S256x128.Idx → EReal) (ix2 h j) := by
  obtain ⟨-, -, e10, e11, -⟩ := idx_facts1 t
  unfold iblk1
  rw [View.read_apply]
  show V c main_v33 _ = V c main_v33 _
  congr 1
  funext a
  apply Fin.ext
  match a with
  | ⟨0, _⟩ => show win1_1.index t 0 * 256 + 1 * h.val = h.val; rw [e10]; omega
  | ⟨1, _⟩ => show win1_1.index t 1 * 128 + 1 * j.val = j.val; rw [e11]; omega

/-- What point `t` writes back is block `t` of the second layer of the arrays the call is entered with. -/
theorem flushed1 (c : Dev nD) (t : Fin cfg1.N) :
    (dat1 V c).flushed 2 t = ((cfg1.win 2).blk t).view.read (Elt Ideal) (G1 (V c main_v32) (V c main_v33)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x128) hz]
  obtain ⟨e00, e01, e10, e11, e20, e21⟩ := idx_facts1 t
  have ht := lt_ten1 t
  funext j
  obtain ⟨p, q, rfl⟩ : ∃ (p : Fin 5000) (q : Fin 128), j = ix2 p q := ⟨j 0, j 1, eq_ix2 j⟩
  have hr : t.val * 5000 + p.val < 50000 := by have := p.isLt; omega
  show k1_pay1 (F := Ideal) (iblk1 V c 0 t) (iblk1 V c 1 t) (ix2 p q)
    = G1 (V c main_v32) (V c main_v33) (((cfg1.win 2).blk t).view.emb (ix2 p q))
  rw [pay1_apply]
  refine Eq.trans ?_ (congrArg₂ (layer2 (V c main_v32) (V c main_v33)) (Fin.ext ?_) (Fin.ext ?_) :
    layer2 (V c main_v32) (V c main_v33) ⟨t.val * 5000 + p.val, hr⟩ q
      = G1 (V c main_v32) (V c main_v33) (((cfg1.win 2).blk t).view.emb (ix2 p q)))
  · unfold layer2
    simp only [fun h => blk1_0 V c t p h ⟨t.val * 5000 + p.val, hr⟩ rfl, fun h => blk1_1 V c t h q]
  · show t.val * 5000 + p.val = win1_2.index t 0 * 5000 + 1 * p.val
    rw [e20]; omega
  · show q.val = win1_2.index t 1 * 128 + 1 * q.val
    rw [e21]; omega

/-- An index of the second call's result array is in point `t`'s block iff each coordinate is in the block's range. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v34).slice (win1_2.rect t)).set ↔ _
  rw [View.set_slice_whole, Rect.mem_set_unit]
  exact Iff.rfl

/-- After the second call its result array holds the second layer of the arrays the call is entered with. -/
theorem final1 (c : Dev nD) : (dat1 V c).arrAt 2 cfg1.N = G1 (V c main_v32) (V c main_v33) :=
  (dat1 V c).arrAt_eq_of_cover 2 _ (fun t _ => flushed1 V c t) fun i => by
    have hi0 : (i 0).val < 50000 := (i 0).isLt
    have hi1 : (i 1).val < 128 := (i 1).isLt
    have hN : grid1.N = 10 := N_1
    obtain ⟨t, htv⟩ : ∃ t : Fin cfg1.N, t.val = (i 0).val / 5000 :=
      ⟨⟨(i 0).val / 5000, by show _ < grid1.N; rw [hN]; omega⟩, rfl⟩
    obtain ⟨-, -, -, -, e20, e21⟩ := idx_facts1 t
    refine ⟨t, flush1_2 t, ?_⟩
    rw [mem_blk1]
    intro a
    match a with
    | ⟨0, _⟩ =>
      show win1_2.index t 0 * 5000 ≤ (i 0).val ∧ (i 0).val < win1_2.index t 0 * 5000 + 5000
      rw [e20, htv]; omega
    | ⟨1, _⟩ =>
      show win1_2.index t 1 * 128 ≤ (i 1).val ∧ (i 1).val < win1_2.index t 1 * 128 + 128
      rw [e21]; omega

end Cert.KernelIdeal.KVal

end
-- ==== Proof.KHost.lean ====
/-
  The host side of the idealized kernel, segment by segment.

  Between the launch and the return the buffers pass through seven segments. Each stretch of host operations is read
  from an ARBITRARY entry valuation: the two index rows and the degree; the clip of the degree at one; the
  normalisation factor, the first node-scaled aggregation and the first layer's operands; the second weight matrix
  transposed; the second aggregation with the bias. Each pallas_call leaves its result array at one whole-array
  function of its operands and touches nothing else. Chaining the boundaries gives the result buffer at the return as
  one term of the six argument arrays: the bias added to the aggregation of the second layer of the first layer of the
  aggregation of the features.
-/
import proofs.«167148_j40226663694509_2_alg».proof.Proof.Gen.KernelIdeal.Frame
import proofs.«167148_j40226663694509_2_alg».proof.Proof.Gen.ReferenceIdeal.Read
import proofs.«167148_j40226663694509_2_alg».proof.Proof.KAggr
import proofs.«167148_j40226663694509_2_alg».proof.Proof.KRegion
import Idealize.ShloMosaic.Lib.StableHlo.Run
import Idealize.ShloMosaic.Lib.Pipeline.Value
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

variable (Vp : Valuation τ sig (Elt Ideal))

/-! ## The host stretches, each from an arbitrary entry valuation -/

/-! ### Before the clip: the two index rows and the degree -/
theorem A_row : StableHlo.after (hostOps0 (F := Ideal)) Vp (Proc.devRef .tc main_v5) = Cert.ReferenceIdeal.Read.val_main_v5 (F := Ideal) (Vp (Proc.devRef .tc main_arg1)) := by
  after_results <;> rfl
theorem A_col : StableHlo.after (hostOps0 (F := Ideal)) Vp (Proc.devRef .tc main_v6) = Cert.ReferenceIdeal.Read.val_main_v6 (F := Ideal) (Vp (Proc.devRef .tc main_arg1)) := by
  after_results <;> rfl
theorem A_deg : StableHlo.after (hostOps0 (F := Ideal)) Vp (Proc.devRef .tc main_v10) = Cert.ReferenceIdeal.Read.val_main_v10 (F := Ideal) (Vp (Proc.devRef .tc main_arg1)) := by
  after_results <;> rfl
theorem A_one : StableHlo.after (hostOps0 (F := Ideal)) Vp (Proc.devRef .tc main_cst_1) = Cert.ReferenceIdeal.Read.val_main_cst_1 (F := Ideal) := by
  after_results <;> rfl
theorem A_keep_arg0 : StableHlo.after (hostOps0 (F := Ideal)) Vp (Proc.devRef .tc main_arg0) = Vp (Proc.devRef .tc main_arg0) := by after_results
theorem A_keep_arg2 : StableHlo.after (hostOps0 (F := Ideal)) Vp (Proc.devRef .tc main_arg2) = Vp (Proc.devRef .tc main_arg2) := by after_results
theorem A_keep_arg3 : StableHlo.after (hostOps0 (F := Ideal)) Vp (Proc.devRef .tc main_arg3) = Vp (Proc.devRef .tc main_arg3) := by after_results
theorem A_keep_arg4 : StableHlo.after (hostOps0 (F := Ideal)) Vp (Proc.devRef .tc main_arg4) = Vp (Proc.devRef .tc main_arg4) := by after_results
theorem A_keep_arg5 : StableHlo.after (hostOps0 (F := Ideal)) Vp (Proc.devRef .tc main_arg5) = Vp (Proc.devRef .tc main_arg5) := by after_results

/-! ### The clip: the degree's maximum with one -/
theorem B_clip : @Eq (FVec Ideal S50000 .f32) (StableHlo.after (hostOps0_1 (F := Ideal)) Vp (Proc.devRef .tc main_v11))
    (maximumf (broadcastInDim S50000 ![] bcast_S_S50000 (id (Vp (Proc.devRef .tc main_cst_1) : FVec Ideal S_ .f32))) (Vp (Proc.devRef .tc main_v10) : FVec Ideal S50000 .f32)) := by
  after_results <;> rfl
theorem B_keep_v5 : StableHlo.after (hostOps0_1 (F := Ideal)) Vp (Proc.devRef .tc main_v5) = Vp (Proc.devRef .tc main_v5) := by after_results
theorem B_keep_v6 : StableHlo.after (hostOps0_1 (F := Ideal)) Vp (Proc.devRef .tc main_v6) = Vp (Proc.devRef .tc main_v6) := by after_results
theorem B_keep_arg0 : StableHlo.after (hostOps0_1 (F := Ideal)) Vp (Proc.devRef .tc main_arg0) = Vp (Proc.devRef .tc main_arg0) := by after_results
theorem B_keep_arg2 : StableHlo.after (hostOps0_1 (F := Ideal)) Vp (Proc.devRef .tc main_arg2) = Vp (Proc.devRef .tc main_arg2) := by after_results
theorem B_keep_arg3 : StableHlo.after (hostOps0_1 (F := Ideal)) Vp (Proc.devRef .tc main_arg3) = Vp (Proc.devRef .tc main_arg3) := by after_results
theorem B_keep_arg4 : StableHlo.after (hostOps0_1 (F := Ideal)) Vp (Proc.devRef .tc main_arg4) = Vp (Proc.devRef .tc main_arg4) := by after_results
theorem B_keep_arg5 : StableHlo.after (hostOps0_1 (F := Ideal)) Vp (Proc.devRef .tc main_arg5) = Vp (Proc.devRef .tc main_arg5) := by after_results

/-! ### Up to the first call: the normalisation factor, the first aggregation, the first layer's operands -/
theorem C_dinv : @Eq (FVec Ideal S50000 .f32) (StableHlo.after (hostOps0_2 (F := Ideal)) Vp (Proc.devRef .tc main_v13))
    (Host.powf (Vp (Proc.devRef .tc main_v11) : FVec Ideal S50000 .f32) (broadcastInDim S50000 ![] bcast_S_S50000 (constant S_ .f32 0xBF000000#32))) := by
  after_results_simp <;> rfl
theorem C_h0 : @Eq (FVec Ideal S50000x128 .f32) (StableHlo.after (hostOps0_2 (F := Ideal)) Vp (Proc.devRef .tc main_v29))
    (aggr (Host.powf (Vp (Proc.devRef .tc main_v11) : FVec Ideal S50000 .f32) (broadcastInDim S50000 ![] bcast_S_S50000 (constant S_ .f32 0xBF000000#32)))
        (Vp (Proc.devRef .tc main_v5)) (Vp (Proc.devRef .tc main_v6)) (Vp (Proc.devRef .tc main_arg0))) := by
  after_results_simp <;> rfl
theorem C_w1t : StableHlo.after (hostOps0_2 (F := Ideal)) Vp (Proc.devRef .tc main_v30) = Cert.ReferenceIdeal.Read.val_main_v42 (F := Ideal) (Vp (Proc.devRef .tc main_arg2)) := by
  after_results_simp <;> rfl
theorem C_b1 : @Eq (FVec Ideal S1x256 .f32) (StableHlo.after (hostOps0_2 (F := Ideal)) Vp (Proc.devRef .tc main_v31))
    (shapeCast S1x256 (Vp (Proc.devRef .tc main_arg3) : FVec Ideal S256 .f32) shapeCasts_S256_S1x256) := by
  after_results_simp <;> rfl
theorem C_keep_v5 : StableHlo.after (hostOps0_2 (F := Ideal)) Vp (Proc.devRef .tc main_v5) = Vp (Proc.devRef .tc main_v5) := by after_results_simp
theorem C_keep_v6 : StableHlo.after (hostOps0_2 (F := Ideal)) Vp (Proc.devRef .tc main_v6) = Vp (Proc.devRef .tc main_v6) := by after_results_simp
theorem C_keep_arg4 : StableHlo.after (hostOps0_2 (F := Ideal)) Vp (Proc.devRef .tc main_arg4) = Vp (Proc.devRef .tc main_arg4) := by after_results_simp
theorem C_keep_arg5 : StableHlo.after (hostOps0_2 (F := Ideal)) Vp (Proc.devRef .tc main_arg5) = Vp (Proc.devRef .tc main_arg5) := by after_results_simp

/-! ### Between the calls: the second weight matrix transposed -/
theorem D_w2t : StableHlo.after (hostOps1 (F := Ideal)) Vp (Proc.devRef .tc main_v33) = Cert.ReferenceIdeal.Read.val_main_v61 (F := Ideal) (Vp (Proc.devRef .tc main_arg4)) := by
  after_results <;> rfl
theorem D_keep_v32 : StableHlo.after (hostOps1 (F := Ideal)) Vp (Proc.devRef .tc main_v32) = Vp (Proc.devRef .tc main_v32) := by after_results_simp
theorem D_keep_v13 : StableHlo.after (hostOps1 (F := Ideal)) Vp (Proc.devRef .tc main_v13) = Vp (Proc.devRef .tc main_v13) := by after_results_simp
theorem D_keep_v5 : StableHlo.after (hostOps1 (F := Ideal)) Vp (Proc.devRef .tc main_v5) = Vp (Proc.devRef .tc main_v5) := by after_results_simp
theorem D_keep_v6 : StableHlo.after (hostOps1 (F := Ideal)) Vp (Proc.devRef .tc main_v6) = Vp (Proc.devRef .tc main_v6) := by after_results_simp
theorem D_keep_arg5 : StableHlo.after (hostOps1 (F := Ideal)) Vp (Proc.devRef .tc main_arg5) = Vp (Proc.devRef .tc main_arg5) := by after_results_simp

/-! ### After the second call: the second aggregation and the bias -/
theorem E_out : @Eq (FVec Ideal S50000x128 .f32) (StableHlo.after (hostOps2 (F := Ideal)) Vp (Proc.devRef .tc main_v53))
    (addf (aggr (Vp (Proc.devRef .tc main_v13)) (Vp (Proc.devRef .tc main_v5)) (Vp (Proc.devRef .tc main_v6)) (Vp (Proc.devRef .tc main_v34)))
        (Cert.ReferenceIdeal.Read.val_main_v64 (F := Ideal) (Vp (Proc.devRef .tc main_arg5)))) := by
  after_results_simp <;> rfl

/-! ## The buffers' contents at each boundary between segments -/

section Boundaries
variable (c : Dev nD)

/-! ### After the first stretch -/
theorem W1_row : W1 m ρ c (Proc.devRef .tc main_v5) = (Cert.ReferenceIdeal.Read.val_main_v5 (F := Ideal) (m ((c : Thread nD τ).loc main_arg1))) := A_row (W0 m ρ c)
theorem W1_col : W1 m ρ c (Proc.devRef .tc main_v6) = (Cert.ReferenceIdeal.Read.val_main_v6 (F := Ideal) (m ((c : Thread nD τ).loc main_arg1))) := A_col (W0 m ρ c)
theorem W1_deg : W1 m ρ c (Proc.devRef .tc main_v10) = Cert.ReferenceIdeal.Read.val_main_v10 (F := Ideal) (m ((c : Thread nD τ).loc main_arg1)) := A_deg (W0 m ρ c)
theorem W1_one : W1 m ρ c (Proc.devRef .tc main_cst_1) = Cert.ReferenceIdeal.Read.val_main_cst_1 (F := Ideal) := A_one (W0 m ρ c)
theorem W1_arg0 : W1 m ρ c (Proc.devRef .tc main_arg0) = (m ((c : Thread nD τ).loc main_arg0)) := A_keep_arg0 (W0 m ρ c)
theorem W1_arg2 : W1 m ρ c (Proc.devRef .tc main_arg2) = (m ((c : Thread nD τ).loc main_arg2)) := A_keep_arg2 (W0 m ρ c)
theorem W1_arg3 : W1 m ρ c (Proc.devRef .tc main_arg3) = (m ((c : Thread nD τ).loc main_arg3)) := A_keep_arg3 (W0 m ρ c)
theorem W1_arg4 : W1 m ρ c (Proc.devRef .tc main_arg4) = (m ((c : Thread nD τ).loc main_arg4)) := A_keep_arg4 (W0 m ρ c)
theorem W1_arg5 : W1 m ρ c (Proc.devRef .tc main_arg5) = (m ((c : Thread nD τ).loc main_arg5)) := A_keep_arg5 (W0 m ρ c)

/-! ### After the clip -/
theorem W2_clip : W2 m ρ c (Proc.devRef .tc main_v11) = Cert.ReferenceIdeal.Read.val_main_v11 (F := Ideal) (m ((c : Thread nD τ).loc main_arg1)) := by
  refine (B_clip (W1 m ρ c)).trans ?_
  rw [W1_one m ρ c, W1_deg m ρ c]
  rfl
theorem W2_row : W2 m ρ c (Proc.devRef .tc main_v5) = (Cert.ReferenceIdeal.Read.val_main_v5 (F := Ideal) (m ((c : Thread nD τ).loc main_arg1))) := (B_keep_v5 (W1 m ρ c)).trans (W1_row m ρ c)
theorem W2_col : W2 m ρ c (Proc.devRef .tc main_v6) = (Cert.ReferenceIdeal.Read.val_main_v6 (F := Ideal) (m ((c : Thread nD τ).loc main_arg1))) := (B_keep_v6 (W1 m ρ c)).trans (W1_col m ρ c)
theorem W2_arg0 : W2 m ρ c (Proc.devRef .tc main_arg0) = (m ((c : Thread nD τ).loc main_arg0)) := (B_keep_arg0 (W1 m ρ c)).trans (W1_arg0 m ρ c)
theorem W2_arg2 : W2 m ρ c (Proc.devRef .tc main_arg2) = (m ((c : Thread nD τ).loc main_arg2)) := (B_keep_arg2 (W1 m ρ c)).trans (W1_arg2 m ρ c)
theorem W2_arg3 : W2 m ρ c (Proc.devRef .tc main_arg3) = (m ((c : Thread nD τ).loc main_arg3)) := (B_keep_arg3 (W1 m ρ c)).trans (W1_arg3 m ρ c)
theorem W2_arg4 : W2 m ρ c (Proc.devRef .tc main_arg4) = (m ((c : Thread nD τ).loc main_arg4)) := (B_keep_arg4 (W1 m ρ c)).trans (W1_arg4 m ρ c)
theorem W2_arg5 : W2 m ρ c (Proc.devRef .tc main_arg5) = (m ((c : Thread nD τ).loc main_arg5)) := (B_keep_arg5 (W1 m ρ c)).trans (W1_arg5 m ρ c)

/-! ### At the first call's entry -/
theorem W3_dinv : W3 m ρ c (Proc.devRef .tc main_v13) = (Cert.ReferenceIdeal.Read.val_main_v13 (F := Ideal) (m ((c : Thread nD τ).loc main_arg1))) := by
  refine (C_dinv (W2 m ρ c)).trans ?_
  rw [W2_clip m ρ c]
  rfl
theorem W3_row : W3 m ρ c (Proc.devRef .tc main_v5) = (Cert.ReferenceIdeal.Read.val_main_v5 (F := Ideal) (m ((c : Thread nD τ).loc main_arg1))) := (C_keep_v5 (W2 m ρ c)).trans (W2_row m ρ c)
theorem W3_col : W3 m ρ c (Proc.devRef .tc main_v6) = (Cert.ReferenceIdeal.Read.val_main_v6 (F := Ideal) (m ((c : Thread nD τ).loc main_arg1))) := (C_keep_v6 (W2 m ρ c)).trans (W2_col m ρ c)
theorem W3_arg4 : W3 m ρ c (Proc.devRef .tc main_arg4) = (m ((c : Thread nD τ).loc main_arg4)) := (C_keep_arg4 (W2 m ρ c)).trans (W2_arg4 m ρ c)
theorem W3_arg5 : W3 m ρ c (Proc.devRef .tc main_arg5) = (m ((c : Thread nD τ).loc main_arg5)) := (C_keep_arg5 (W2 m ρ c)).trans (W2_arg5 m ρ c)
theorem W3_h0 : W3 m ρ c (Proc.devRef .tc main_v29) = (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (m ((c : Thread nD τ).loc main_arg0))) := by
  refine (C_h0 (W2 m ρ c)).trans ?_
  rw [W2_clip m ρ c, W2_row m ρ c, W2_col m ρ c, W2_arg0 m ρ c]
  rfl
theorem W3_w1t : W3 m ρ c (Proc.devRef .tc main_v30) = (Cert.ReferenceIdeal.Read.val_main_v42 (F := Ideal) (m ((c : Thread nD τ).loc main_arg2))) := by
  refine (C_w1t (W2 m ρ c)).trans ?_
  rw [W2_arg2 m ρ c]
theorem W3_b1 : W3 m ρ c (Proc.devRef .tc main_v31) = (shapeCast S1x256 (m ((c : Thread nD τ).loc main_arg3)) shapeCasts_S256_S1x256) := by
  refine (C_b1 (W2 m ρ c)).trans ?_
  rw [W2_arg3 m ρ c]

/-! ### At the first call's exit: the hidden activations -/
theorem W4_h : W4 m ρ c (Proc.devRef .tc main_v32) = (G0 (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (m ((c : Thread nD τ).loc main_arg0))) (Cert.ReferenceIdeal.Read.val_main_v42 (F := Ideal) (m ((c : Thread nD τ).loc main_arg2))) (shapeCast S1x256 (m ((c : Thread nD τ).loc main_arg3)) shapeCasts_S256_S1x256)) := by
  refine (W4_arr m ρ c 3).trans ?_
  refine (final0 (V3 m ρ) c).trans ?_
  show G0 (W3 m ρ c (Proc.devRef .tc main_v29)) (W3 m ρ c (Proc.devRef .tc main_v30)) (W3 m ρ c (Proc.devRef .tc main_v31)) = _
  rw [W3_h0 m ρ c, W3_w1t m ρ c, W3_b1 m ρ c]
theorem W4_dinv : W4 m ρ c (Proc.devRef .tc main_v13) = (Cert.ReferenceIdeal.Read.val_main_v13 (F := Ideal) (m ((c : Thread nD τ).loc main_arg1))) := (W4_of_ne m ρ c main_v13 (by decide)).trans (W3_dinv m ρ c)
theorem W4_row : W4 m ρ c (Proc.devRef .tc main_v5) = (Cert.ReferenceIdeal.Read.val_main_v5 (F := Ideal) (m ((c : Thread nD τ).loc main_arg1))) := (W4_of_ne m ρ c main_v5 (by decide)).trans (W3_row m ρ c)
theorem W4_col : W4 m ρ c (Proc.devRef .tc main_v6) = (Cert.ReferenceIdeal.Read.val_main_v6 (F := Ideal) (m ((c : Thread nD τ).loc main_arg1))) := (W4_of_ne m ρ c main_v6 (by decide)).trans (W3_col m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)

/-! ### At the second call's entry -/
theorem W5_h : W5 m ρ c (Proc.devRef .tc main_v32) = (G0 (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (m ((c : Thread nD τ).loc main_arg0))) (Cert.ReferenceIdeal.Read.val_main_v42 (F := Ideal) (m ((c : Thread nD τ).loc main_arg2))) (shapeCast S1x256 (m ((c : Thread nD τ).loc main_arg3)) shapeCasts_S256_S1x256)) := (D_keep_v32 (W4 m ρ c)).trans (W4_h m ρ c)
theorem W5_w2t : W5 m ρ c (Proc.devRef .tc main_v33) = (Cert.ReferenceIdeal.Read.val_main_v61 (F := Ideal) (m ((c : Thread nD τ).loc main_arg4))) := by
  refine (D_w2t (W4 m ρ c)).trans ?_
  rw [W4_arg4 m ρ c]
theorem W5_dinv : W5 m ρ c (Proc.devRef .tc main_v13) = (Cert.ReferenceIdeal.Read.val_main_v13 (F := Ideal) (m ((c : Thread nD τ).loc main_arg1))) := (D_keep_v13 (W4 m ρ c)).trans (W4_dinv m ρ c)
theorem W5_row : W5 m ρ c (Proc.devRef .tc main_v5) = (Cert.ReferenceIdeal.Read.val_main_v5 (F := Ideal) (m ((c : Thread nD τ).loc main_arg1))) := (D_keep_v5 (W4 m ρ c)).trans (W4_row m ρ c)
theorem W5_col : W5 m ρ c (Proc.devRef .tc main_v6) = (Cert.ReferenceIdeal.Read.val_main_v6 (F := Ideal) (m ((c : Thread nD τ).loc main_arg1))) := (D_keep_v6 (W4 m ρ c)).trans (W4_col m ρ c)
theorem W5_arg5 : W5 m ρ c (Proc.devRef .tc main_arg5) = (m ((c : Thread nD τ).loc main_arg5)) := (D_keep_arg5 (W4 m ρ c)).trans (W4_arg5 m ρ c)

/-! ### At the second call's exit: the hidden activations through the second layer -/
theorem W6_hw : W6 m ρ c (Proc.devRef .tc main_v34) = (G1 (G0 (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (m ((c : Thread nD τ).loc main_arg0))) (Cert.ReferenceIdeal.Read.val_main_v42 (F := Ideal) (m ((c : Thread nD τ).loc main_arg2))) (shapeCast S1x256 (m ((c : Thread nD τ).loc main_arg3)) shapeCasts_S256_S1x256)) (Cert.ReferenceIdeal.Read.val_main_v61 (F := Ideal) (m ((c : Thread nD τ).loc main_arg4)))) := by
  refine (W6_arr m ρ c 2).trans ?_
  refine (final1 (V5 m ρ) c).trans ?_
  show G1 (W5 m ρ c (Proc.devRef .tc main_v32)) (W5 m ρ c (Proc.devRef .tc main_v33)) = _
  rw [W5_h m ρ c, W5_w2t m ρ c]
theorem W6_dinv : W6 m ρ c (Proc.devRef .tc main_v13) = (Cert.ReferenceIdeal.Read.val_main_v13 (F := Ideal) (m ((c : Thread nD τ).loc main_arg1))) := (W6_of_ne m ρ c main_v13 (by decide)).trans (W5_dinv m ρ c)
theorem W6_row : W6 m ρ c (Proc.devRef .tc main_v5) = (Cert.ReferenceIdeal.Read.val_main_v5 (F := Ideal) (m ((c : Thread nD τ).loc main_arg1))) := (W6_of_ne m ρ c main_v5 (by decide)).trans (W5_row m ρ c)
theorem W6_col : W6 m ρ c (Proc.devRef .tc main_v6) = (Cert.ReferenceIdeal.Read.val_main_v6 (F := Ideal) (m ((c : Thread nD τ).loc main_arg1))) := (W6_of_ne m ρ c main_v6 (by decide)).trans (W5_col m ρ c)
theorem W6_arg5 : W6 m ρ c (Proc.devRef .tc main_arg5) = (m ((c : Thread nD τ).loc main_arg5)) := (W6_of_ne m ρ c main_arg5 (by decide)).trans (W5_arg5 m ρ c)

/-! ### At the return -/

/-- The result buffer at the return: the second aggregation of the two layers of the first aggregation, plus the bias. -/
theorem W7_out : W7 m ρ c (Proc.devRef .tc main_v53)
    = addf (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (G1 (G0 (aggr (Cert.ReferenceIdeal.Read.val_main_v13 (F := Ideal) (m ((c : Thread nD τ).loc main_arg1))) (Cert.ReferenceIdeal.Read.val_main_v5 (F := Ideal) (m ((c : Thread nD τ).loc main_arg1))) (Cert.ReferenceIdeal.Read.val_main_v6 (F := Ideal) (m ((c : Thread nD τ).loc main_arg1))) (m ((c : Thread nD τ).loc main_arg0))) (Cert.ReferenceIdeal.Read.val_main_v42 (F := Ideal) (m ((c : Thread nD τ).loc main_arg2))) (shapeCast S1x256 (m ((c : Thread nD τ).loc main_arg3)) shapeCasts_S256_S1x256)) (Cert.ReferenceIdeal.Read.val_main_v61 (F := Ideal) (m ((c : Thread nD τ).loc main_arg4))))) (Cert.ReferenceIdeal.Read.val_main_v64 (F := Ideal) (m ((c : Thread nD τ).loc main_arg5))) := by
  refine (E_out (W6 m ρ c)).trans ?_
  rw [W6_dinv m ρ c, W6_row m ρ c, W6_col m ρ c, W6_hw m ρ c, W6_arg5 m ρ c]

end Boundaries

end Cert.KernelIdeal.KVal

end
-- ==== Proof.GcnLaw.lean ====
/-
  The algebra behind a two-layer graph convolution, over abstract finite index types and on the extended reals.

  Nodes `N`, edges `E`, feature axes `K` (input), `H` (hidden), `J` (output). `P i` is the set of edges that land on
  node `i`; `r e` and `c e` are the nodes an edge reads its two normalisation factors and its features from; for an edge
  landing on `i` the first of them is `i` itself (`hr`). `d` is the per-node normalisation factor.

  `refOut` weights every edge by `d (r e) * d (c e)`, aggregates, applies the first layer with bias and `max · 0`,
  aggregates again with the same weights and applies the second layer and bias.
  `kerOut` scales the features by `d` before each aggregation and the aggregate by `d` after it, and applies the
  second layer BEFORE the second aggregation.
  The two agree when every entry is a real number: the factor `d i` moves out of the sum over `P i` (distributivity,
  which needs finiteness on the extended reals) and the second layer's contraction commutes with the edge sum
  (linearity, again on finite entries).
-/
import Mathlib.Data.EReal.Inv
import Mathlib.Algebra.BigOperators.Ring.Finset

noncomputable section

namespace Cert.Gcn

open Finset

variable {N E K H J : Type} [Fintype K] [Fintype H]

/-- The edge-weighted form: every edge carries the weight `d (r e) * d (c e)`. -/
def refOut (P : N → Finset E) (r c : E → N) (d : N → EReal) (x : N → K → EReal) (W1 : H → K → EReal) (b1 : H → EReal)
    (W2 : J → H → EReal) (b2 : J → EReal) (i : N) (j : J) : EReal :=
  (∑ h, (∑ e ∈ P i, (d (r e) * d (c e)) *
      max ((∑ k, (∑ e' ∈ P (c e), (d (r e') * d (c e')) * x (c e') k) * W1 h k) + b1 h) 0) * W2 j h) + b2 j

/-- The node-scaled form: features scaled by `d` before each aggregation, the aggregate scaled by `d` after it, and the
    second layer applied before the second aggregation. -/
def kerOut (P : N → Finset E) (c : E → N) (d : N → EReal) (x : N → K → EReal) (W1 : H → K → EReal) (b1 : H → EReal)
    (W2 : J → H → EReal) (b2 : J → EReal) (i : N) (j : J) : EReal :=
  d i * (∑ e ∈ P i, d (c e) *
      (∑ h, max ((∑ k, (d (c e) * ∑ e' ∈ P (c e), d (c e') * x (c e') k) * W1 h k) + b1 h) 0 * W2 j h)) + b2 j

/-- The embedding of the reals commutes with the maximum with zero. -/
theorem coe_max_zero (a : ℝ) : max (a : EReal) 0 = ((max a 0 : ℝ) : EReal) := by
  rcases le_total a 0 with h | h
  · have h' : (a : EReal) ≤ 0 := by rw [← EReal.coe_zero]; exact EReal.coe_le_coe_iff.2 h
    rw [max_eq_right h, max_eq_right h', EReal.coe_zero]
  · have h' : (0 : EReal) ≤ (a : EReal) := by rw [← EReal.coe_zero]; exact EReal.coe_le_coe_iff.2 h
    rw [max_eq_left h, max_eq_left h']

/-- The embedding of the reals commutes with finite sums. -/
theorem coe_sum {ι : Type} (s : Finset ι) (f : ι → ℝ) :
    ∑ e ∈ s, ((f e : ℝ) : EReal) = ((∑ e ∈ s, f e : ℝ) : EReal) := by
  classical
  refine Finset.induction_on s ?_ ?_
  · rw [Finset.sum_empty, Finset.sum_empty, EReal.coe_zero]
  · intro a s ha ih
    rw [Finset.sum_insert ha, Finset.sum_insert ha, ih, EReal.coe_add]

/-- The inner aggregate over real entries: for an edge landing on `n` the first factor is `d n`, which moves out of
    the sum. -/
theorem inner_real (P : N → Finset E) (r c : E → N) (hr : ∀ i, ∀ e ∈ P i, r e = i) (dr : N → ℝ) (y : N → ℝ) (n : N) :
    ∑ e ∈ P n, (dr (r e) * dr (c e)) * y (c e) = dr n * ∑ e ∈ P n, dr (c e) * y (c e) := by
  rw [Finset.mul_sum]
  refine Finset.sum_congr rfl fun e he => ?_
  rw [hr n e he, mul_assoc]

/-- The outer aggregate over real entries: the factor `d i` moves out of the edge sum and the contraction with the
    second layer's weights commutes with it. -/
theorem outer_real (P : N → Finset E) (r c : E → N) (hr : ∀ i, ∀ e ∈ P i, r e = i) (dr : N → ℝ) (a : N → H → ℝ)
    (w : H → ℝ) (i : N) :
    ∑ h, (∑ e ∈ P i, (dr (r e) * dr (c e)) * a (c e) h) * w h
      = dr i * ∑ e ∈ P i, dr (c e) * ∑ h, a (c e) h * w h := by
  rw [Finset.mul_sum]
  simp_rw [Finset.sum_mul, Finset.mul_sum]
  rw [Finset.sum_comm]
  refine Finset.sum_congr rfl fun e he => Finset.sum_congr rfl fun h _ => ?_
  rw [hr i e he]
  ring

/-- The two forms agree on real entries. -/
theorem refOut_eq_kerOut (P : N → Finset E) (r c : E → N) (hr : ∀ i, ∀ e ∈ P i, r e = i)
    (d : N → EReal) (x : N → K → EReal) (W1 : H → K → EReal) (b1 : H → EReal) (W2 : J → H → EReal) (b2 : J → EReal)
    (hd : ∀ n, ∃ a : ℝ, d n = (a : EReal)) (hx : ∀ n k, ∃ a : ℝ, x n k = (a : EReal))
    (hW1 : ∀ h k, ∃ a : ℝ, W1 h k = (a : EReal)) (hb1 : ∀ h, ∃ a : ℝ, b1 h = (a : EReal))
    (hW2 : ∀ j h, ∃ a : ℝ, W2 j h = (a : EReal)) (hb2 : ∀ j, ∃ a : ℝ, b2 j = (a : EReal)) (i : N) (j : J) :
    refOut P r c d x W1 b1 W2 b2 i j = kerOut P c d x W1 b1 W2 b2 i j := by
  choose dr hdr using hd
  choose xr hxr using hx
  choose W1r hW1r using hW1
  choose b1r hb1r using hb1
  choose W2r hW2r using hW2
  choose b2r hb2r using hb2
  obtain rfl : d = fun n => (dr n : EReal) := funext hdr
  obtain rfl : x = fun n k => (xr n k : EReal) := funext fun n => funext (hxr n)
  obtain rfl : W1 = fun h k => (W1r h k : EReal) := funext fun h => funext (hW1r h)
  obtain rfl : b1 = fun h => (b1r h : EReal) := funext hb1r
  obtain rfl : W2 = fun j h => (W2r j h : EReal) := funext fun j => funext (hW2r j)
  obtain rfl : b2 = fun j => (b2r j : EReal) := funext hb2r
  simp only [refOut, kerOut, ← EReal.coe_mul, ← EReal.coe_add, coe_sum, coe_max_zero]
  rw [EReal.coe_eq_coe_iff]
  have key : ∀ n k, ∑ e' ∈ P n, (dr (r e') * dr (c e')) * xr (c e') k
      = dr n * ∑ e' ∈ P n, dr (c e') * xr (c e') k :=
    fun n k => inner_real P r c hr dr (fun m => xr m k) n
  simp only [key]
  exact congrArg (· + b2r j) (outer_real P r c hr dr
    (fun n h => max ((∑ k, (dr n * ∑ e' ∈ P n, dr (c e') * xr (c e') k) * W1r h k) + b1r h) 0) (W2r j) i)

end Cert.Gcn

end
-- ==== Proof.KBridge.lean ====
/-
  The kernel's result term, read at an index, is the node-scaled form of the graph-convolution law.

  The term is: bias + aggr (second layer (first layer (aggr features))). Reading the outer aggregation at node `i`,
  feature `j` gives `d i` times the sum over the edges landing on `i` of `d` at the edge's source times the second
  layer at the source; the second layer is the sum over hidden features of the first layer times the transposed second
  weights; the first layer is the clipped sum over input features of the inner aggregation times the transposed first
  weights plus the bias; the inner aggregation is read the same way as the outer one. That is `Cert.Gcn.kerOut`.
-/
import proofs.«167148_j40226663694509_2_alg».proof.Proof.Gen.ReferenceIdeal.Read
import proofs.«167148_j40226663694509_2_alg».proof.Proof.KAggr
import proofs.«167148_j40226663694509_2_alg».proof.Proof.KRegion
import proofs.«167148_j40226663694509_2_alg».proof.Proof.GcnLaw
import proofs.«167148_j40226663694509_2_alg».proof.Proof.GcnIndex
import Idealize.ShloMosaic.Lib.Pipeline.Value
import Idealize.ShloMosaic.Lib.ValueIdx
import Idealize.ShloMosaic.Lib.ValueLayout

set_option maxRecDepth 16384

noncomputable section

namespace Cert.KernelIdeal.KVal

open Cert.KernelIdeal Cert.KernelIdeal.Gen Cert.Gcn
open Idealize.ShloMosaic Idealize.ShloMosaic.ValueIdx Idealize.ShloMosaic.RowIndex

/-- The second layer's bias, broadcast over the nodes, read at an index. -/
theorem bias_apply (x5 : FVec Ideal S128 .f32) (i : Fin 50000) (j : Fin 128) :
    Cert.ReferenceIdeal.Read.val_main_v64 (F := Ideal) x5 (ix2 i j) = x5 (ix1 j) := by
  rw [Cert.ReferenceIdeal.Read.val_main_v64_apply, Cert.ReferenceIdeal.Read.val_main_v63_apply]
  exact congrArg x5 (funext fun a => match a with | ⟨0, _⟩ => rfl)

/-- The first weight matrix transposed, read at an index. -/
theorem w1t_apply (x2 : FVec Ideal S256x128 .f32) (k : Fin 128) (h : Fin 256) :
    Cert.ReferenceIdeal.Read.val_main_v42 (F := Ideal) x2 (ix2 k h) = x2 (ix2 h k) := by
  rw [Cert.ReferenceIdeal.Read.val_main_v42_apply]
  exact congrArg x2 (funext fun a => match a with | ⟨0, _⟩ => rfl | ⟨1, _⟩ => rfl)

/-- The second weight matrix transposed, read at an index. -/
theorem w2t_apply (x4 : FVec Ideal S128x256 .f32) (h : Fin 256) (j : Fin 128) :
    Cert.ReferenceIdeal.Read.val_main_v61 (F := Ideal) x4 (ix2 h j) = x4 (ix2 j h) := by
  rw [Cert.ReferenceIdeal.Read.val_main_v61_apply]
  exact congrArg x4 (funext fun a => match a with | ⟨0, _⟩ => rfl | ⟨1, _⟩ => rfl)

/-- The kernel's result, read at node `i` and output feature `j`, is the node-scaled form of the law. -/
theorem kernel_apply (d : FVec Ideal S50000 .f32) (row col : IVec S850000 32)
    (x0 : FVec Ideal S50000x128 .f32) (x2 : FVec Ideal S256x128 .f32) (x3 : FVec Ideal S256 .f32)
    (x4 : FVec Ideal S128x256 .f32) (x5 : FVec Ideal S128 .f32) (i : Fin 50000) (j : Fin 128) :
    addf (aggr d row col (G1 (G0 (aggr d row col x0) (Cert.ReferenceIdeal.Read.val_main_v42 (F := Ideal) x2) (shapeCast S1x256 x3 shapeCasts_S256_S1x256))
        (Cert.ReferenceIdeal.Read.val_main_v61 (F := Ideal) x4))) (Cert.ReferenceIdeal.Read.val_main_v64 (F := Ideal) x5) (ix2 i j)
      = kerOut (edgesOn row) (wrapRow col) (fun n : Fin 50000 => d (ix1 n)) (fun (n : Fin 50000) (k : Fin 128) => x0 (ix2 n k))
          (fun (h : Fin 256) (k : Fin 128) => x2 (ix2 h k)) (fun h : Fin 256 => x3 (ix1 h))
          (fun (j : Fin 128) (h : Fin 256) => x4 (ix2 j h)) (fun j : Fin 128 => x5 (ix1 j)) i j := by
  rw [addf_apply, aggr_apply, bias_apply]
  unfold kerOut
  refine congrArg (fun s => d (ix1 i) * s + x5 (ix1 j)) (Finset.sum_congr rfl fun e _ => ?_)
  refine congrArg (fun s => d (ix1 (wrapRow col e)) * s) ?_
  show layer2 _ _ (wrapRow col e) j = _
  unfold layer2
  refine Finset.sum_congr rfl fun h _ => ?_
  rw [w2t_apply]
  refine congrArg (fun s => s * x4 (ix2 j h)) ?_
  show layer1 _ _ _ (wrapRow col e) h = _
  unfold layer1
  rw [shapeCast_a_1a_apply]
  refine congrArg (fun s => max (s + x3 (ix1 h)) 0) (Finset.sum_congr rfl fun k _ => ?_)
  rw [w1t_apply, aggr_apply]

end Cert.KernelIdeal.KVal

end
-- ==== Proof.RefBridge.lean ====
/-
  The reference's result, read at an index, is the edge-weighted form of the graph-convolution law.

  Its run composes: the target and source rows of the edge list (the given edges followed by one self loop per node);
  the degree of every node (a scatter-add of ones through the target row), clipped below at one and raised to the
  power -1/2; the per-edge weight, the product of that factor gathered at the edge's target and at its source; twice an
  aggregation (rows gathered at the sources, scaled by the weight, scatter-added at the targets), the first followed by
  a product with the first weight matrix transposed, a bias and a maximum with zero, the second by a product with the
  second weight matrix transposed and a bias. Read index by index that is `Cert.Gcn.refOut`.
-/
import proofs.«167148_j40226663694509_2_alg».proof.Proof.Gen.ReferenceIdeal.Read
import proofs.«167148_j40226663694509_2_alg».proof.Proof.GcnLaw
import proofs.«167148_j40226663694509_2_alg».proof.Proof.GcnIndex
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.Gcn
open Idealize.ShloMosaic Idealize.ShloMosaic.ValueIdx Idealize.ShloMosaic.RowIndex

/-- The wrapped target word of edge `e`, as the first gather reads it. -/
theorem word19_apply (x1 : (⟨S2x800000, .i32⟩ : BufTy).Contents (Elt Ideal)) (e : Fin 850000) :
    val_main_v19 (F := Ideal) x1 (ix2 e 0) = wrapWord (val_main_v5 (F := Ideal) x1 (ix1 e)) := by
  rw [val_main_v19_apply, val_main_v18_apply, val_main_v15_apply, val_main_v17_apply, val_main_v14_apply,
    val_main_v16_apply, val_main_c_apply, val_main_c_3_apply]
  have h : idx_main_v19 (ix2 e 0) = ix1 e := by
    funext a; match a with | ⟨0, _⟩ => rfl
  rw [h]
  rfl

/-- The wrapped source word of edge `e`, as the second gather reads it. -/
theorem word26_apply (x1 : (⟨S2x800000, .i32⟩ : BufTy).Contents (Elt Ideal)) (e : Fin 850000) :
    val_main_v26 (F := Ideal) x1 (ix2 e 0) = wrapWord (val_main_v6 (F := Ideal) x1 (ix1 e)) := by
  rw [val_main_v26_apply, val_main_v25_apply, val_main_v22_apply, val_main_v24_apply, val_main_v21_apply,
    val_main_v23_apply, val_main_c_4_apply, val_main_c_5_apply]
  have h : idx_main_v26 (ix2 e 0) = ix1 e := by
    funext a; match a with | ⟨0, _⟩ => rfl
  rw [h]
  rfl

/-- The wrapped source word of edge `e`, as the first row gather reads it. -/
theorem word35_apply (x1 : (⟨S2x800000, .i32⟩ : BufTy).Contents (Elt Ideal)) (e : Fin 850000) :
    val_main_v35 (F := Ideal) x1 (ix2 e 0) = wrapWord (val_main_v6 (F := Ideal) x1 (ix1 e)) := by
  rw [val_main_v35_apply, val_main_v34_apply, val_main_v31_apply, val_main_v33_apply, val_main_v30_apply,
    val_main_v32_apply, val_main_c_6_apply, val_main_c_7_apply]
  have h : idx_main_v35 (ix2 e 0) = ix1 e := by
    funext a; match a with | ⟨0, _⟩ => rfl
  rw [h]
  rfl

/-- The wrapped source word of edge `e`, as the second row gather reads it. -/
theorem word54_apply (x1 : (⟨S2x800000, .i32⟩ : BufTy).Contents (Elt Ideal)) (e : Fin 850000) :
    val_main_v54 (F := Ideal) x1 (ix2 e 0) = wrapWord (val_main_v6 (F := Ideal) x1 (ix1 e)) := by
  rw [val_main_v54_apply, val_main_v53_apply, val_main_v50_apply, val_main_v52_apply, val_main_v49_apply,
    val_main_v51_apply, val_main_c_9_apply, val_main_c_10_apply]
  have h : idx_main_v54 (ix2 e 0) = ix1 e := by
    funext a; match a with | ⟨0, _⟩ => rfl
  rw [h]
  rfl

/-- The weight of edge `e`: the normalisation factor at its target times the factor at its source. -/
theorem weight_apply (x1 : (⟨S2x800000, .i32⟩ : BufTy).Contents (Elt Ideal)) (e : Fin 850000) :
    val_main_v28 (F := Ideal) x1 (ix1 e)
      = val_main_v13 (F := Ideal) x1 (ix1 (wrapRow (val_main_v5 (F := Ideal) x1) e))
        * val_main_v13 (F := Ideal) x1 (ix1 (wrapRow (val_main_v6 (F := Ideal) x1) e)) := by
  rw [val_main_v28_apply, Ideal.mulf_def]
  unfold val_main_v20 val_main_v27
  have hg : gather_S50000_S850000x1_S850000_n_0_n_n_0_1_1
      = vecGatherDims 50000 850000 Gen.gather_S50000_S850000x1_S850000_n_0_n_n_0_1_1_wf := rfl
  rw [hg, vecGather_apply (by decide), vecGather_apply (by decide), word19_apply, word26_apply]
  rfl

/-- The index row of the first scatter at `(e, 0)` is the raw target word of edge `e`. -/
theorem word40_apply (x1 : (⟨S2x800000, .i32⟩ : BufTy).Contents (Elt Ideal)) (e : Fin 850000) :
    val_main_v40 (F := Ideal) x1 (ix2 e 0) = val_main_v5 (F := Ideal) x1 (ix1 e) := by
  rw [val_main_v40_apply]
  have h : idx_main_v40 (ix2 e 0) = ix1 e := by
    funext a; match a with | ⟨0, _⟩ => rfl
  rw [h]

/-- The index row of the second scatter at `(e, 0)` is the raw target word of edge `e`. -/
theorem word59_apply (x1 : (⟨S2x800000, .i32⟩ : BufTy).Contents (Elt Ideal)) (e : Fin 850000) :
    val_main_v59 (F := Ideal) x1 (ix2 e 0) = val_main_v5 (F := Ideal) x1 (ix1 e) := by
  rw [val_main_v59_apply]
  have h : idx_main_v59 (ix2 e 0) = ix1 e := by
    funext a; match a with | ⟨0, _⟩ => rfl
  rw [h]

/-- The first aggregation's update row of edge `e`: the edge weight times the source node's features. -/
theorem upd1_apply (x0 : (⟨S50000x128, .f32⟩ : BufTy).Contents (Elt Ideal)) (x1 : (⟨S2x800000, .i32⟩ : BufTy).Contents (Elt Ideal))
    (e : Fin 850000) (k : Fin 128) :
    val_main_v38 (F := Ideal) x0 x1 (ix2 e k)
      = (val_main_v13 (F := Ideal) x1 (ix1 (wrapRow (val_main_v5 (F := Ideal) x1) e))
          * val_main_v13 (F := Ideal) x1 (ix1 (wrapRow (val_main_v6 (F := Ideal) x1) e)))
        * x0 (ix2 (wrapRow (val_main_v6 (F := Ideal) x1) e) k) := by
  rw [val_main_v38_apply, Ideal.mulf_def, val_main_v37_apply, val_main_v29_apply]
  have h : idx_main_v29 (idx_main_v37 (ix2 e k)) = ix1 e := by
    funext a; match a with | ⟨0, _⟩ => rfl
  rw [h, weight_apply]
  unfold val_main_v36
  have hg : gather_S50000x128_S850000x1_S850000x128_1_0_n_n_0_1_1128
      = rowGatherDims 50000 850000 128 Gen.gather_S50000x128_S850000x1_S850000x128_1_0_n_n_0_1_1128_wf := rfl
  rw [hg, rowGather_apply (by decide), word35_apply]
  rfl

/-- The first aggregation as the accumulating row scatter it is. -/
theorem v41_eq (x0 : (⟨S50000x128, .f32⟩ : BufTy).Contents (Elt Ideal)) (x1 : (⟨S2x800000, .i32⟩ : BufTy).Contents (Elt Ideal)) :
    val_main_v41 (F := Ideal) x0 x1
      = Ideal.hostScatterAdd (rowScatterDims 50000 850000 128 Gen.scatter_S50000x128_S850000x1_S850000x128_1_0_0_1_wf)
          (val_main_v39 (F := Ideal)) (val_main_v40 (F := Ideal) x1) (val_main_v38 (F := Ideal) x0 x1) := rfl

/-- The first aggregate at node `n`, feature `k`: the weighted sum over the edges landing on `n`. -/
theorem agg1_apply (x0 : (⟨S50000x128, .f32⟩ : BufTy).Contents (Elt Ideal)) (x1 : (⟨S2x800000, .i32⟩ : BufTy).Contents (Elt Ideal))
    (n : Fin 50000) (k : Fin 128) :
    val_main_v41 (F := Ideal) x0 x1 (ix2 n k)
      = ∑ e ∈ edgesOn (val_main_v5 (F := Ideal) x1) n,
          (val_main_v13 (F := Ideal) x1 (ix1 (wrapRow (val_main_v5 (F := Ideal) x1) e))
            * val_main_v13 (F := Ideal) x1 (ix1 (wrapRow (val_main_v6 (F := Ideal) x1) e)))
          * x0 (ix2 (wrapRow (val_main_v6 (F := Ideal) x1) e) k) := by
  have h0 : val_main_v39 (F := Ideal) (ix2 n k) = 0 := by
    rw [val_main_v39_apply, val_main_cst_8_apply, Ideal.ofBits_def, Ideal.ofBits_zero_f32]
  rw [v41_eq, rowScatterAdd_apply, h0, zero_add]
  exact Finset.sum_congr (Finset.filter_congr fun e _ => by rw [word40_apply]) fun e _ => upd1_apply x0 x1 e k

/-- The hidden activation at node `n`, hidden feature `h`: the first aggregate contracted with the first layer's weights,
    plus its bias, cut below at zero. -/
theorem hidden_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (n : Fin 50000) (h : Fin 256) :
    val_main_v47 (F := Ideal) x0 x1 x2 x3 (ix2 n h)
      = max ((∑ k : Fin 128, val_main_v41 (F := Ideal) x0 x1 (ix2 n k) * x2 (ix2 h k)) + x3 (ix1 h)) 0 := by
  rw [val_main_v47_apply, Ideal.maximumf_def, val_main_v46_apply, Ideal.addf_def, val_main_v43_apply,
    val_main_call1_v0_apply, val_main_call1_cst_apply, Ideal.ofBits_def, Ideal.ofBits_zero_f32,
    val_main_v45_apply, val_main_v44_apply]
  have h3 : idx_main_v44 (idx_main_v45 (ix2 n h)) = ix1 h := by
    funext a; match a with | ⟨0, _⟩ => rfl
  have hsum : (∑ k : Fin 128, val_main_v41 (F := Ideal) x0 x1 (lidx_main_v43 (ix2 n h) k)
        * val_main_v42 (F := Ideal) x2 (ridx_main_v43 (ix2 n h) k))
      = ∑ k : Fin 128, val_main_v41 (F := Ideal) x0 x1 (ix2 n k) * x2 (ix2 h k) := by
    refine Finset.sum_congr rfl fun k _ => ?_
    have hl : lidx_main_v43 (ix2 n h) k = ix2 n k := by
      funext a; match a with | ⟨0, _⟩ => rfl | ⟨1, _⟩ => rfl
    have hr : idx_main_v42 (ridx_main_v43 (ix2 n h) k) = ix2 h k := by
      funext a; match a with | ⟨0, _⟩ => rfl | ⟨1, _⟩ => rfl
    rw [val_main_v42_apply, hl, hr]
  rw [h3, hsum]

/-- The second aggregation's update row of edge `e`: the edge weight times the source node's hidden activations. -/
theorem upd2_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (e : Fin 850000) (h : Fin 256) :
    val_main_v57 (F := Ideal) x0 x1 x2 x3 (ix2 e h)
      = (val_main_v13 (F := Ideal) x1 (ix1 (wrapRow (val_main_v5 (F := Ideal) x1) e))
          * val_main_v13 (F := Ideal) x1 (ix1 (wrapRow (val_main_v6 (F := Ideal) x1) e)))
        * val_main_v47 (F := Ideal) x0 x1 x2 x3 (ix2 (wrapRow (val_main_v6 (F := Ideal) x1) e) h) := by
  rw [val_main_v57_apply, Ideal.mulf_def, val_main_v56_apply, val_main_v48_apply]
  have hi : idx_main_v48 (idx_main_v56 (ix2 e h)) = ix1 e := by
    funext a; match a with | ⟨0, _⟩ => rfl
  rw [hi, weight_apply]
  unfold val_main_v55
  have hg : gather_S50000x256_S850000x1_S850000x256_1_0_n_n_0_1_1256
      = rowGatherDims 50000 850000 256 Gen.gather_S50000x256_S850000x1_S850000x256_1_0_n_n_0_1_1256_wf := rfl
  rw [hg, rowGather_apply (by decide), word54_apply]
  rfl

/-- The second aggregation as the accumulating row scatter it is. -/
theorem v60_eq (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal)) :
    val_main_v60 (F := Ideal) x0 x1 x2 x3
      = Ideal.hostScatterAdd (rowScatterDims 50000 850000 256 Gen.scatter_S50000x256_S850000x1_S850000x256_1_0_0_1_wf)
          (val_main_v58 (F := Ideal)) (val_main_v59 (F := Ideal) x1) (val_main_v57 (F := Ideal) x0 x1 x2 x3) := rfl

/-- The second aggregate at node `n`, hidden feature `h`: the weighted sum over the edges landing on `n`. -/
theorem agg2_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (n : Fin 50000) (h : Fin 256) :
    val_main_v60 (F := Ideal) x0 x1 x2 x3 (ix2 n h)
      = ∑ e ∈ edgesOn (val_main_v5 (F := Ideal) x1) n,
          (val_main_v13 (F := Ideal) x1 (ix1 (wrapRow (val_main_v5 (F := Ideal) x1) e))
            * val_main_v13 (F := Ideal) x1 (ix1 (wrapRow (val_main_v6 (F := Ideal) x1) e)))
          * val_main_v47 (F := Ideal) x0 x1 x2 x3 (ix2 (wrapRow (val_main_v6 (F := Ideal) x1) e) h) := by
  have h0 : val_main_v58 (F := Ideal) (ix2 n h) = 0 := by
    rw [val_main_v58_apply, val_main_cst_11_apply, Ideal.ofBits_def, Ideal.ofBits_zero_f32]
  rw [v60_eq, rowScatterAdd_apply, h0, zero_add]
  exact Finset.sum_congr (Finset.filter_congr fun e _ => by rw [word59_apply]) fun e _ => upd2_apply x0 x1 x2 x3 e h

/-- The hidden activation with the first aggregate written out. -/
theorem hidden_full_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (n : Fin 50000) (h : Fin 256) :
    val_main_v47 (F := Ideal) x0 x1 x2 x3 (ix2 n h)
      = max ((∑ k : Fin 128, (∑ e' ∈ edgesOn (val_main_v5 (F := Ideal) x1) n,
              (val_main_v13 (F := Ideal) x1 (ix1 (wrapRow (val_main_v5 (F := Ideal) x1) e')) * val_main_v13 (F := Ideal) x1 (ix1 (wrapRow (val_main_v6 (F := Ideal) x1) e'))) * x0 (ix2 (wrapRow (val_main_v6 (F := Ideal) x1) e') k)) * x2 (ix2 h k)) + x3 (ix1 h)) 0 := by
  rw [hidden_apply]
  exact congrArg (fun s => max (s + x3 (ix1 h)) 0) (Finset.sum_congr rfl fun k _ => by rw [agg1_apply])

/-- The second aggregate with the hidden activation written out. -/
theorem agg2_full_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (n : Fin 50000) (h : Fin 256) :
    val_main_v60 (F := Ideal) x0 x1 x2 x3 (ix2 n h)
      = ∑ e ∈ edgesOn (val_main_v5 (F := Ideal) x1) n,
          (val_main_v13 (F := Ideal) x1 (ix1 (wrapRow (val_main_v5 (F := Ideal) x1) e)) * val_main_v13 (F := Ideal) x1 (ix1 (wrapRow (val_main_v6 (F := Ideal) x1) e))) *
            max ((∑ k : Fin 128, (∑ e' ∈ edgesOn (val_main_v5 (F := Ideal) x1) (wrapRow (val_main_v6 (F := Ideal) x1) e),
              (val_main_v13 (F := Ideal) x1 (ix1 (wrapRow (val_main_v5 (F := Ideal) x1) e')) * val_main_v13 (F := Ideal) x1 (ix1 (wrapRow (val_main_v6 (F := Ideal) x1) e'))) * x0 (ix2 (wrapRow (val_main_v6 (F := Ideal) x1) e') k)) * x2 (ix2 h k)) + x3 (ix1 h)) 0 := by
  rw [agg2_apply]
  exact Finset.sum_congr rfl fun e _ => by rw [hidden_full_apply]

/-- The left operand's index of the second contraction at `(i, j)`, contraction index `h`. -/
theorem lidx62_apply (i : Fin 50000) (j : Fin 128) (h : Fin 256) : lidx_main_v62 (ix2 i j) h = ix2 i h := by
  funext a; match a with | ⟨0, _⟩ => rfl | ⟨1, _⟩ => rfl

/-- The transposed second weight matrix read at the right operand's index of the second contraction. -/
theorem w2_apply (x4 : (⟨S128x256, .f32⟩ : BufTy).Contents (Elt Ideal)) (i : Fin 50000) (j : Fin 128) (h : Fin 256) :
    val_main_v61 (F := Ideal) x4 (ridx_main_v62 (ix2 i j) h) = x4 (ix2 j h) := by
  have hr : idx_main_v61 (ridx_main_v62 (ix2 i j) h) = ix2 j h := by
    funext a; match a with | ⟨0, _⟩ => rfl | ⟨1, _⟩ => rfl
  rw [val_main_v61_apply, hr]

/-- The second bias, broadcast twice, read at `(i, j)`. -/
theorem bias2_apply (x5 : (⟨S128, .f32⟩ : BufTy).Contents (Elt Ideal)) (i : Fin 50000) (j : Fin 128) :
    val_main_v64 (F := Ideal) x5 (ix2 i j) = x5 (ix1 j) := by
  have h5 : idx_main_v63 (idx_main_v64 (ix2 i j)) = ix1 j := by
    funext a; match a with | ⟨0, _⟩ => rfl
  rw [val_main_v64_apply, val_main_v63_apply, h5]

/-- The second contraction at `(i, j)` with everything below it written out. -/
theorem dot2_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S128x256, .f32⟩ : BufTy).Contents (Elt Ideal)) (i : Fin 50000) (j : Fin 128) :
    val_main_v62 (F := Ideal) x0 x1 x2 x3 x4 (ix2 i j)
      = ∑ h : Fin 256, (∑ e ∈ edgesOn (val_main_v5 (F := Ideal) x1) i,
          (val_main_v13 (F := Ideal) x1 (ix1 (wrapRow (val_main_v5 (F := Ideal) x1) e)) * val_main_v13 (F := Ideal) x1 (ix1 (wrapRow (val_main_v6 (F := Ideal) x1) e))) *
            max ((∑ k : Fin 128, (∑ e' ∈ edgesOn (val_main_v5 (F := Ideal) x1) (wrapRow (val_main_v6 (F := Ideal) x1) e),
              (val_main_v13 (F := Ideal) x1 (ix1 (wrapRow (val_main_v5 (F := Ideal) x1) e')) * val_main_v13 (F := Ideal) x1 (ix1 (wrapRow (val_main_v6 (F := Ideal) x1) e'))) * x0 (ix2 (wrapRow (val_main_v6 (F := Ideal) x1) e') k)) * x2 (ix2 h k)) + x3 (ix1 h)) 0) * x4 (ix2 j h) := by
  rw [val_main_v62_apply]
  exact Finset.sum_congr rfl fun h _ => by rw [lidx62_apply, w2_apply, agg2_full_apply]

/-- The reference's result at node `i`, output feature `j`. -/
theorem result_apply (x0 : (⟨S50000x128, .f32⟩ : BufTy).Contents (Elt Ideal)) (x1 : (⟨S2x800000, .i32⟩ : BufTy).Contents (Elt Ideal))
    (x2 : (⟨S256x128, .f32⟩ : BufTy).Contents (Elt Ideal)) (x3 : (⟨S256, .f32⟩ : BufTy).Contents (Elt Ideal))
    (x4 : (⟨S128x256, .f32⟩ : BufTy).Contents (Elt Ideal)) (x5 : (⟨S128, .f32⟩ : BufTy).Contents (Elt Ideal))
    (i : Fin 50000) (j : Fin 128) :
    val_main_v65 (F := Ideal) x0 x1 x2 x3 x4 x5 (ix2 i j)
      = refOut (edgesOn (val_main_v5 (F := Ideal) x1)) (wrapRow (val_main_v5 (F := Ideal) x1)) (wrapRow (val_main_v6 (F := Ideal) x1))
          (fun n : Fin 50000 => val_main_v13 (F := Ideal) x1 (ix1 n)) (fun (n : Fin 50000) (k : Fin 128) => x0 (ix2 n k))
          (fun (h : Fin 256) (k : Fin 128) => x2 (ix2 h k)) (fun h : Fin 256 => x3 (ix1 h))
          (fun (j : Fin 128) (h : Fin 256) => x4 (ix2 j h)) (fun j : Fin 128 => x5 (ix1 j)) i j := by
  rw [val_main_v65_apply, Ideal.addf_def, dot2_apply, bias2_apply]
  rfl

end Cert.ReferenceIdeal.RefValue

end
-- ==== Proof.Finite.lean ====
/-
  Finiteness: under the precondition every float input is a real number, and the per-node normalisation factor
  (the degree, a count of edges, clipped below at one and raised to the power -1/2) is a real number for any edge list.
-/
import proofs.«167148_j40226663694509_2_alg».proof.Pre_finite_inputs
import proofs.«167148_j40226663694509_2_alg».proof.Proof.Gen.ReferenceIdeal.Read
import proofs.«167148_j40226663694509_2_alg».proof.Proof.GcnIndex
import Idealize.ShloMosaic.Lib.ValueIdx
import Idealize.ShloMosaic.Lib.ReduceAll
import Idealize.ShloMosaic.Lib.Pipeline.Value

noncomputable section

namespace Cert.Finite

open Idealize.ShloMosaic Idealize.ShloMosaic.ValueIdx Idealize.ShloMosaic.RowIndex

/-! ### The constants of the two programs -/

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of `0.0` denotes the real `0`. -/
theorem ofBits_zero : Ideal.ofBits .f32 0x00000000#32 = ((0 : ℝ) : EReal) := by
  simp [Ideal.ofBits, Ideal.ieee]

/-- The pattern of `+∞` denotes the top element. -/
theorem ofBits_inf : Ideal.ofBits .f32 0x7F800000#32 = ⊤ := by
  simp [Ideal.ofBits, Ideal.ieee]

/-! ### The precondition read back -/

instance : Subsingleton Cert.Pre_finite_inputs.S_.Idx := ⟨fun a b => funext fun d => d.elim0⟩

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have h2 : BitVec.ofBool (decide (max x (-x) < (⊤ : EReal))) = 1#1 := h
  have h3 : max x (-x) < ⊤ := by
    by_contra hn
    rw [decide_eq_false hn] at h2
    exact absurd h2 (by decide)
  induction x using EReal.rec with
  | bot => simp at h3
  | coe r => exact ⟨r, rfl⟩
  | top => simp at h3

/-- `all (|a| < +∞)`, as the reduction by `and` of the elementwise comparison, says every entry of `a` is a real number. -/
theorem real_of_all {s : Shape} {axes : List (Fin s.rank)} (a : FVec Ideal s .f32)
    (bc : Cert.Pre_finite_inputs.S_.BroadcastsInDim s (![] : Fin 0 → Fin s.rank))
    (h : s.ReducesTo axes Cert.Pre_finite_inputs.S_) (hu : 0 < Cert.Pre_finite_inputs.S_.numel)
    (init : IVec Cert.Pre_finite_inputs.S_ 1)
    (e : Host.reduce IntOp.andi (cmpf .olt (Host.absf a)
        (broadcastInDim s ![] bc (constant Cert.Pre_finite_inputs.S_ .f32 0x7F800000#32))) init h hu ix0 = 1#1)
    (i : s.Idx) : ∃ r : ℝ, a i = (r : EReal) := by
  have hi := Host.reduce_andi_all _ init h hu ix0 e i
  have hb : broadcastInDim s ![] bc (constant (F := Ideal) Cert.Pre_finite_inputs.S_ .f32 0x7F800000#32) i
      = Ideal.ofBits .f32 0x7F800000#32 :=
    broadcastInDim_apply _ bc _ i ix0 (fun a => a.elim0)
  have hc : Ideal.cmp .olt (max (a i) (-(a i))) (Ideal.ofBits .f32 0x7F800000#32) = 1#1 := by
    rw [← hb]; exact hi
  exact real_of_abs_lt_inf _ hc

/-- Under `finite_inputs` every entry of every float input is a real number. -/
theorem reals_of_pre [Cert.Pre_finite_inputs.Facts]
    (a0 : FVec Ideal Cert.Pre_finite_inputs.S50000x128 .f32) (a1 : IVec Cert.Pre_finite_inputs.S2x800000 32)
    (a2 : FVec Ideal Cert.Pre_finite_inputs.S256x128 .f32) (a3 : FVec Ideal Cert.Pre_finite_inputs.S256 .f32)
    (a4 : FVec Ideal Cert.Pre_finite_inputs.S128x256 .f32) (a5 : FVec Ideal Cert.Pre_finite_inputs.S128 .f32)
    (h : Cert.Pre_finite_inputs.fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨real_of_all a0 _ _ _ _ h1, real_of_all a2 _ _ _ _ h2, real_of_all a3 _ _ _ _ h3,
    real_of_all a4 _ _ _ _ h4, real_of_all a5 _ _ _ _ h5⟩

/-! ### The normalisation factor -/

/-- A finite sum of real numbers, taken among the extended reals, is a real number. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨q, hq⟩ := ih (fun i hi => hf i (Finset.mem_insert_of_mem hi))
    exact ⟨r + q, by rw [Finset.sum_insert ha, hr, hq, EReal.coe_add]⟩

/-- The sum of two real numbers, taken among the extended reals, is a real number. -/
theorem real_add {x y : EReal} (hx : ∃ a : ℝ, x = (a : EReal)) (hy : ∃ b : ℝ, y = (b : EReal)) :
    ∃ r : ℝ, x + y = (r : EReal) := by
  obtain ⟨a, rfl⟩ := hx
  obtain ⟨b, rfl⟩ := hy
  exact ⟨a + b, (EReal.coe_add a b).symm⟩

/-- The larger of two real numbers is a real number. -/
theorem real_max {x y : EReal} (hx : ∃ a : ℝ, x = (a : EReal)) (hy : ∃ b : ℝ, y = (b : EReal)) :
    ∃ r : ℝ, max x y = (r : EReal) := by
  obtain ⟨a, rfl⟩ := hx
  obtain ⟨b, rfl⟩ := hy
  exact ⟨max a b, (EReal.coe_strictMono.monotone.map_max).symm⟩

/-- A real number raised to a real power is a real number. -/
theorem real_pow {x y : EReal} (hx : ∃ a : ℝ, x = (a : EReal)) (hy : ∃ b : ℝ, y = (b : EReal)) :
    ∃ r : ℝ, Ideal.pow x y = (r : EReal) := by
  obtain ⟨a, rfl⟩ := hx
  obtain ⟨b, rfl⟩ := hy
  exact ⟨Real.rpow a b, rfl⟩

/-- An accumulating scatter of real updates into an array of reals is an array of reals, whatever the dimension numbers
    and the indices: each entry is its initial value plus a finite sum of updates. -/
theorem scatterAdd_real {s si su : Shape} {w : Nat} {φ : FTy} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  unfold Host.scatterAdd
  rw [Ideal.hostScatterAdd_def]
  unfold Ideal.hostScatterAdd
  exact real_add (hx i) (sum_real _ _ (fun j _ => hu j))

/-- Every entry of the vector of zeros the degree starts from is a real number. -/
theorem v8_real [Cert.ReferenceIdeal.Facts] (i : Cert.ReferenceIdeal.S50000.Idx) :
    ∃ r : ℝ, Cert.ReferenceIdeal.Read.val_main_v8 (F := Ideal) i = (r : EReal) :=
  ⟨0, by rw [Cert.ReferenceIdeal.Read.val_main_v8_apply, Cert.ReferenceIdeal.Read.val_main_cst_0_apply, Ideal.ofBits_def, ofBits_zero]⟩

/-- Every entry of the vector of ones the edges contribute is a real number. -/
theorem v7_real [Cert.ReferenceIdeal.Facts] (i : Cert.ReferenceIdeal.S850000.Idx) :
    ∃ r : ℝ, Cert.ReferenceIdeal.Read.val_main_v7 (F := Ideal) i = (r : EReal) :=
  ⟨1, by rw [Cert.ReferenceIdeal.Read.val_main_v7_apply, Cert.ReferenceIdeal.Read.val_main_cst_apply, Ideal.ofBits_def, ofBits_one]⟩

/-- The degree of every node (ones scattered into zeros along the edge targets) is a real number. -/
theorem deg_real [Cert.ReferenceIdeal.Facts] (x1 : (⟨Cert.ReferenceIdeal.S2x800000, .i32⟩ : BufTy).Contents (Elt Ideal))
    (i : Cert.ReferenceIdeal.S50000.Idx) :
    ∃ d : ℝ, Cert.ReferenceIdeal.Read.val_main_v10 (F := Ideal) x1 i = (d : EReal) := by
  unfold Cert.ReferenceIdeal.Read.val_main_v10
  exact scatterAdd_real _ _ _ _ v8_real v7_real i

/-- The normalisation factor of every node is a real number, whatever the edge list. -/
theorem dinv_real [Cert.ReferenceIdeal.Facts] (x1 : (⟨Cert.ReferenceIdeal.S2x800000, .i32⟩ : BufTy).Contents (Elt Ideal)) (n : Fin 50000) :
    ∃ a : ℝ, Cert.ReferenceIdeal.Read.val_main_v13 (F := Ideal) x1 (ix1 n) = (a : EReal) := by
  rw [Cert.ReferenceIdeal.Read.val_main_v13_apply, Cert.ReferenceIdeal.Read.val_main_v11_apply,
    Cert.ReferenceIdeal.Read.val_main_v12_apply, Cert.ReferenceIdeal.Read.val_main_cst_2_apply,
    Cert.ReferenceIdeal.Read.val_main_call0_v1_apply, Cert.ReferenceIdeal.Read.val_main_call0_v0_apply,
    Cert.ReferenceIdeal.Read.val_main_cst_1_apply, Ideal.ofBits_def, Ideal.ofBits_def, ofBits_one, ofBits_neg_half]
  exact real_pow (real_max ⟨1, rfl⟩ (deg_real x1 (ix1 n))) ⟨-(1 / 2), rfl⟩

end Cert.Finite

end
-- ==== Proof.Claims.lean ====
/-
  The five claims.

  The two word-level and idealized kernel frames are the generated ones; the reference has no kernel and its frame is
  its generated run with the result dropped; the ideal pass rewrote nothing, so `preserves` is trivial.
  `algebraic`: the kernel's run ends with its result buffer at the node-scaled term of the arguments, the reference's
  run at the edge-weighted term; read at an index the two are the two forms of the graph-convolution law, which agree
  because under the precondition every float input is a real number and the normalisation factor is one for any edge
  list.
-/
import proofs.«167148_j40226663694509_2_alg».proof.Defs
import proofs.«167148_j40226663694509_2_alg».proof.Proof.Gen.Kernel.Frame
import proofs.«167148_j40226663694509_2_alg».proof.Proof.Gen.KernelIdeal.Frame
import proofs.«167148_j40226663694509_2_alg».proof.Proof.Gen.ReferenceIdeal.Run
import proofs.«167148_j40226663694509_2_alg».proof.Proof.Gen.ReferenceIdeal.Read
import proofs.«167148_j40226663694509_2_alg».proof.Proof.Gen.Pre_finite_inputs
import proofs.«167148_j40226663694509_2_alg».proof.Proof.KRun
import proofs.«167148_j40226663694509_2_alg».proof.Proof.KHost
import proofs.«167148_j40226663694509_2_alg».proof.Proof.KBridge
import proofs.«167148_j40226663694509_2_alg».proof.Proof.RefBridge
import proofs.«167148_j40226663694509_2_alg».proof.Proof.Finite
import proofs.«167148_j40226663694509_2_alg».proof.Proof.GcnLaw

noncomputable section

open Idealize.ShloMosaic Idealize.ShloMosaic.TcCoe Idealize.SL.Sem Idealize.ShloMosaic.ValueIdx

namespace Cert.Proof.Claims

open Cert.KernelIdeal Cert.KernelIdeal.KVal Cert.Gcn

/-- Under the precondition the kernel's result term and the reference's are one array: index by index they are the two
    forms of the law on real entries. -/
theorem results_eq (x0 : FVec Ideal S50000x128 .f32) (x1 : IVec S2x800000 32) (x2 : FVec Ideal S256x128 .f32)
    (x3 : FVec Ideal S256 .f32) (x4 : FVec Ideal S128x256 .f32) (x5 : FVec Ideal S128 .f32)
    (hpre : Cert.Pre_finite_inputs.fn (F := Ideal) x0 x1 x2 x3 x4 x5 = fun _ => 1#1) :
    addf (aggr (Cert.ReferenceIdeal.Read.val_main_v13 (F := Ideal) x1) (Cert.ReferenceIdeal.Read.val_main_v5 (F := Ideal) x1) (Cert.ReferenceIdeal.Read.val_main_v6 (F := Ideal) x1)
        (G1 (G0 (aggr (Cert.ReferenceIdeal.Read.val_main_v13 (F := Ideal) x1) (Cert.ReferenceIdeal.Read.val_main_v5 (F := Ideal) x1) (Cert.ReferenceIdeal.Read.val_main_v6 (F := Ideal) x1) x0)
          (Cert.ReferenceIdeal.Read.val_main_v42 (F := Ideal) x2) (shapeCast S1x256 x3 Cert.KernelIdeal.Gen.shapeCasts_S256_S1x256))
          (Cert.ReferenceIdeal.Read.val_main_v61 (F := Ideal) x4))) (Cert.ReferenceIdeal.Read.val_main_v64 (F := Ideal) x5)
      = Cert.ReferenceIdeal.Read.val_main_v65 (F := Ideal) x0 x1 x2 x3 x4 x5 := by
  funext idx
  obtain ⟨i, j, rfl⟩ : ∃ (i : Fin 50000) (j : Fin 128), idx = ix2 i j := ⟨idx 0, idx 1, eq_ix2 idx⟩
  obtain ⟨h0, h2, h3, h4, h5⟩ := Cert.Finite.reals_of_pre x0 x1 x2 x3 x4 x5 hpre
  rw [kernel_apply, Cert.ReferenceIdeal.RefValue.result_apply]
  exact (refOut_eq_kerOut (edgesOn (Cert.ReferenceIdeal.Read.val_main_v5 (F := Ideal) x1)) (wrapRow (Cert.ReferenceIdeal.Read.val_main_v5 (F := Ideal) x1))
    (wrapRow (Cert.ReferenceIdeal.Read.val_main_v6 (F := Ideal) x1)) (wrapRow_of_mem_edgesOn (Cert.ReferenceIdeal.Read.val_main_v5 (F := Ideal) x1))
    (fun n : Fin 50000 => Cert.ReferenceIdeal.Read.val_main_v13 (F := Ideal) x1 (ix1 n)) (fun (n : Fin 50000) (k : Fin 128) => x0 (ix2 n k))
    (fun (h : Fin 256) (k : Fin 128) => x2 (ix2 h k)) (fun h : Fin 256 => x3 (ix1 h))
    (fun (j : Fin 128) (h : Fin 256) => x4 (ix2 j h)) (fun j : Fin 128 => x5 (ix1 j))
    (fun n => Cert.Finite.dinv_real x1 n) (fun n k => h0 _) (fun h k => h2 _) (fun h => h3 _) (fun j h => h4 _) (fun j => h5 _) i j).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- Both idealized programs, run from memories that agree on the arguments, end with the reference's result term of the
    arguments in their result buffers. -/
theorem algebraic : Cert.algebraic_KernelIdeal_ReferenceIdeal := by
  intro m ρ m' ρ' hpre hagree
  refine ⟨fun c => Cert.ReferenceIdeal.Read.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KRun.run_fold (F := Ideal) m ρ)
    rw [W7_out m ρ c]
    exact results_eq _ _ _ _ _ _ (hpre c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v65_eq]
    obtain ⟨e0, e1, e2, e3, e4, e5⟩ := hagree c
    rw [e0, e1, e2, e3, e4, e5]

end Cert.Proof.Claims

end
-- ==== Proof.lean ====
/-
  The certificate's proof: `Cert.Claim` from the witnesses of the programs' stated facts (the generated modules prove
  them) and the five claims of Proof/Claims.lean — three frames, the trivial `preserves`, and `algebraic`, a two-layer
  graph convolution computed node-scaled and with the second layer before the second aggregation against the same
  convolution computed edge-weighted.
-/
import proofs.«167148_j40226663694509_2_alg».proof.Defs
import proofs.«167148_j40226663694509_2_alg».proof.Proof.Gen.Kernel
import proofs.«167148_j40226663694509_2_alg».proof.Proof.Gen.Kernel.Skeleton
import proofs.«167148_j40226663694509_2_alg».proof.Proof.Gen.Kernel.Launch
import proofs.«167148_j40226663694509_2_alg».proof.Proof.Gen.Kernel.Points
import proofs.«167148_j40226663694509_2_alg».proof.Proof.Gen.Kernel.Frame
import proofs.«167148_j40226663694509_2_alg».proof.Proof.Gen.KernelIdeal
import proofs.«167148_j40226663694509_2_alg».proof.Proof.Gen.KernelIdeal.Skeleton
import proofs.«167148_j40226663694509_2_alg».proof.Proof.Gen.KernelIdeal.Launch
import proofs.«167148_j40226663694509_2_alg».proof.Proof.Gen.KernelIdeal.Points
import proofs.«167148_j40226663694509_2_alg».proof.Proof.Gen.KernelIdeal.Frame
import proofs.«167148_j40226663694509_2_alg».proof.Proof.Gen.ReferenceIdeal
import proofs.«167148_j40226663694509_2_alg».proof.Proof.Gen.ReferenceIdeal.Run
import proofs.«167148_j40226663694509_2_alg».proof.Proof.Gen.ReferenceIdeal.Read
import proofs.«167148_j40226663694509_2_alg».proof.Proof.Gen.Pre_finite_inputs
import proofs.«167148_j40226663694509_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
